-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S384x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S625000x128 .f32) (main_arg2 : IVec S2x625000 32) (main_arg3 : FVec F S256x128 .f32) (main_arg4 : FVec F S128 .f32) (main_arg5 : FVec F S256x128 .f32) (main_arg6 : FVec F S128 .f32) (main_arg7 : FVec F S384x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S384x128 : Shape := ⟨2, ![384, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S627200x128 : Shape := ⟨2, ![627200, 128]⟩
abbrev S128x128 : Shape := ⟨2, ![128, 128]⟩
abbrev S1x128 : Shape := ⟨2, ![1, 128]⟩
abbrev S6400x128 : Shape := ⟨2, ![6400, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 73
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S100000x128, .bf16⟩
  | .hbm, ⟨14, _⟩ => ⟨S_, .i32⟩
  | .hbm, ⟨15, _⟩ => ⟨S625000, .i32⟩
  | .hbm, ⟨16, _⟩ => ⟨S625000, .i1⟩
  | .hbm, ⟨17, _⟩ => ⟨S_, .i32⟩
  | .hbm, ⟨18, _⟩ => ⟨S625000, .i32⟩
  | .hbm, ⟨19, _⟩ => ⟨S625000, .i32⟩
  | .hbm, ⟨20, _⟩ => ⟨S625000, .i32⟩
  | .hbm, ⟨21, _⟩ => ⟨S625000x1, .i32⟩
  | .hbm, ⟨22, _⟩ => ⟨S625000x128, .bf16⟩
  | .hbm, ⟨23, _⟩ => ⟨S_, .i32⟩
  | .hbm, ⟨24, _⟩ => ⟨S625000, .i32⟩
  | .hbm, ⟨25, _⟩ => ⟨S625000, .i1⟩
  | .hbm, ⟨26, _⟩ => ⟨S_, .i32⟩
  | .hbm, ⟨27, _⟩ => ⟨S625000, .i32⟩
  | .hbm, ⟨28, _⟩ => ⟨S625000, .i32⟩
  | .hbm, ⟨29, _⟩ => ⟨S625000, .i32⟩
  | .hbm, ⟨30, _⟩ => ⟨S625000x1, .i32⟩
  | .hbm, ⟨31, _⟩ => ⟨S625000x128, .bf16⟩
  | .hbm, ⟨32, _⟩ => ⟨S_, .i32⟩
  | .hbm, ⟨33, _⟩ => ⟨S_, .bf16⟩
  | .hbm, ⟨34, _⟩ => ⟨S627200x128, .bf16⟩
  | .hbm, ⟨35, _⟩ => ⟨S_, .i32⟩
  | .hbm, ⟨36, _⟩ => ⟨S_, .bf16⟩
  | .hbm, ⟨37, _⟩ => ⟨S627200x128, .bf16⟩
  | .hbm, ⟨38, _⟩ => ⟨S_, .i32⟩
  | .hbm, ⟨39, _⟩ => ⟨S_, .f32⟩
  | .hbm, ⟨40, _⟩ => ⟨S627200x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S627200x128, .f32⟩
  | .hbm, ⟨52, _⟩ => ⟨S627200x128, .f32⟩
  | .hbm, ⟨53, _⟩ => ⟨S625000x128, .f32⟩
  | .hbm, ⟨54, _⟩ => ⟨S625000x128, .f32⟩
  | .hbm, ⟨55, _⟩ => ⟨S_, .f32⟩
  | .hbm, ⟨56, _⟩ => ⟨S100000x128, .f32⟩
  | .hbm, ⟨57, _⟩ => ⟨S625000x1, .i32⟩
  | .hbm, ⟨58, _⟩ => ⟨S100000x128, .f32⟩
  | .hbm, ⟨59, _⟩ => ⟨S_, .f32⟩
  | .hbm, ⟨60, _⟩ => ⟨S625000, .f32⟩
  | .hbm, ⟨61, _⟩ => ⟨S_, .f32⟩
  | .hbm, ⟨62, _⟩ => ⟨S100000, .f32⟩
  | .hbm, ⟨63, _⟩ => ⟨S625000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x128, .f32⟩
  | .local _ .vmem, ⟨5, _⟩ => ⟨S6400x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S6400x128, .f32⟩
  | .local _ .vmem, ⟨14, _⟩ => ⟨S6400x128, .f32⟩
  | .local _ .vmem, ⟨15, _⟩ => ⟨S6400x128, .f32⟩
  | .local _ .vmem, ⟨16, _⟩ => ⟨S6400x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_call0_v0 : Ref sig .tc := ⟨.hbm, 33, rfl⟩
abbrev main_v19 : Ref sig .tc := ⟨.hbm, 34, rfl⟩
abbrev main_c_4 : Ref sig .tc := ⟨.hbm, 35, rfl⟩
abbrev main_call1_v0 : Ref sig .tc := ⟨.hbm, 36, rfl⟩
abbrev main_v20 : Ref sig .tc := ⟨.hbm, 37, rfl⟩
abbrev main_c_5 : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6400x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6400x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bitsLt_bf16_f32 : FTy.bits .bf16 < FTy.bits .f32
  bcast_S_S625000 : S_.BroadcastsInDim S625000 (![] : Fin 0 → Fin S625000.rank)
  bcast_S625000_S625000x1_0 : S625000.BroadcastsInDim S625000x1 (![0] : Fin 1 → Fin S625000x1.rank)
  pads_S625000x128_S627200x128_022000_000 : S625000x128.Pads (![0, 0] : Fin 2 → Nat) ![2200, 0] ![0, 0] S627200x128
  h_S_ : 0 < S_.numel
  slices_S256x128_S128x128_0_0 : S256x128.Slices ![0, 0] S128x128
  slices_S256x128_S128x128_128_0 : S256x128.Slices ![128, 0] S128x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  slices_S627200x128_S625000x128_0_0 : S627200x128.Slices ![0, 0] S625000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  dot_S6400x128_S128x128_S6400x128_1_0_0_1_n_n_wf : DotDims.WF S6400x128 S128x128 S6400x128 [1] [0] [0] [1] [] []
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S627200x128.size a
  hwx0_0 : ∀ i : grid0.Coords, EltTy.bits .bf16 = 32 ∨ (Rect.block (s := S627200x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S627200x128.size a
  hwx0_1 : ∀ i : grid0.Coords, EltTy.bits .bf16 = 32 ∨ (Rect.block (s := S627200x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S627200x128.size a
  hwx0_2 : ∀ i : grid0.Coords, EltTy.bits .f32 = 32 ∨ (Rect.block (s := S627200x128) S6400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6400x128.size a ≤ S627200x128.size a
  hwx0_10 : ∀ i : grid0.Coords, EltTy.bits .f32 = 32 ∨ (Rect.block (s := S627200x128) S6400x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x128.size a ≤ S627200x128.size a
  hwx0_11 : ∀ i : grid0.Coords, EltTy.bits .f32 = 32 ∨ (Rect.block (s := S627200x128) S6400x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32_0) S6400x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v32_1) S6400x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S384x128 : Shape := ⟨2, ![384, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x256 : Shape := ⟨2, ![625000, 256]⟩
abbrev S1x128 : Shape := ⟨2, ![1, 128]⟩
abbrev S100000 : Shape := ⟨1, ![100000]⟩
abbrev S100000x1 : Shape := ⟨2, ![100000, 1]⟩
abbrev S100000x256 : Shape := ⟨2, ![100000, 256]⟩
abbrev S625000x384 : Shape := ⟨2, ![625000, 384]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .i32⟩
  | .hbm, ⟨23, _⟩ => ⟨S625000, .i32⟩
  | .hbm, ⟨24, _⟩ => ⟨S625000, .i1⟩
  | .hbm, ⟨25, _⟩ => ⟨S_, .i32⟩
  | .hbm, ⟨26, _⟩ => ⟨S625000, .i32⟩
  | .hbm, ⟨27, _⟩ => ⟨S625000, .i32⟩
  | .hbm, ⟨28, _⟩ => ⟨S625000, .i32⟩
  | .hbm, ⟨29, _⟩ => ⟨S625000x1, .i32⟩
  | .hbm, ⟨30, _⟩ => ⟨S625000x128, .f32⟩
  | .hbm, ⟨31, _⟩ => ⟨S625000x256, .f32⟩
  | .hbm, ⟨32, _⟩ => ⟨S625000x128, .f32⟩
  | .hbm, ⟨33, _⟩ => ⟨S1x128, .f32⟩
  | .hbm, ⟨34, _⟩ => ⟨S625000x128, .f32⟩
  | .hbm, ⟨35, _⟩ => ⟨S625000x128, .f32⟩
  | .hbm, ⟨36, _⟩ => ⟨S_, .f32⟩
  | .hbm, ⟨37, _⟩ => ⟨S625000x128, .f32⟩
  | .hbm, ⟨38, _⟩ => ⟨S625000x128, .f32⟩
  | .hbm, ⟨39, _⟩ => ⟨S_, .f32⟩
  | .hbm, ⟨40, _⟩ => ⟨S100000x128, .f32⟩
  | .hbm, ⟨41, _⟩ => ⟨S625000x1, .i32⟩
  | .hbm, ⟨42, _⟩ => ⟨S100000x128, .f32⟩
  | .hbm, ⟨43, _⟩ => ⟨S_, .f32⟩
  | .hbm, ⟨44, _⟩ => ⟨S625000, .f32⟩
  | .hbm, ⟨45, _⟩ => ⟨S_, .f32⟩
  | .hbm, ⟨46, _⟩ => ⟨S100000, .f32⟩
  | .hbm, ⟨47, _⟩ => ⟨S625000x1, .i32⟩
  | .hbm, ⟨48, _⟩ => ⟨S100000, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S625000x384, .f32⟩
  | .hbm, ⟨64, _⟩ => ⟨S625000x128, .f32⟩
  | .hbm, ⟨65, _⟩ => ⟨S1x128, .f32⟩
  | .hbm, ⟨66, _⟩ => ⟨S625000x128, .f32⟩
  | .hbm, ⟨67, _⟩ => ⟨S625000x128, .f32⟩
  | .hbm, ⟨68, _⟩ => ⟨S_, .f32⟩
  | .hbm, ⟨69, _⟩ => ⟨S625000x128, .f32⟩
  | .hbm, ⟨70, _⟩ => ⟨S625000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  concatenates_S625000x128_S625000x128_S625000x256_d1 : Shape.Concatenates [S625000x128, S625000x128] S625000x256 1
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  concatenates_S625000x128_S625000x128_S625000x128_S625000x384_d1 : Shape.Concatenates [S625000x128, S625000x128, S625000x128] S625000x384 1
  gather_S100000x128_S625000x1_S625000x128_1_0_n_n_0_1_1128_wf : GatherDims.WF S100000x128 S625000x1 S625000x128 [1] [0] [] [0] [] 1 ![1, 128]
  dot_S625000x256_S256x128_S625000x128_1_0_0_1_n_n_wf : DotDims.WF S625000x256 S256x128 S625000x128 [1] [0] [0] [1] [] []
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x256_S256x128_S100000x128_1_0_0_1_n_n_wf : DotDims.WF S100000x256 S256x128 S100000x128 [1] [0] [0] [1] [] []
  dot_S625000x384_S384x128_S625000x128_1_0_0_1_n_n_wf : DotDims.WF S625000x384 S384x128 S625000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S625000x256_S256x128_S625000x128_1_0_0_1_n_n : DotDims S625000x256 S256x128 S625000x128 where
  lhsContracting := [1]
  rhsContracting := [0]
  lhsNonContracting := [0]
  rhsNonContracting := [1]
  lhsBatch := []
  rhsBatch := []
  wf := dot_S625000x256_S256x128_S625000x128_1_0_0_1_n_n_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S625000x384_S384x128_S625000x128_1_0_0_1_n_n : DotDims S625000x384 S384x128 S625000x128 where
  lhsContracting := [1]
  rhsContracting := [0]
  lhsNonContracting := [0]
  rhsNonContracting := [1]
  lhsBatch := []
  rhsBatch := []
  wf := dot_S625000x384_S384x128_S625000x128_1_0_0_1_n_n_wf

class Facts : Prop extends Facts₀ where

variable [Facts]
-- ==== Proof.RunNamed.lean ====
/-
  The idealized kernel program's run with its two results NAMED. The program is ten segments: seven stretches of host
  operations, the edge region, one more stretch, the node region. The buffer contents at each boundary are a fold
  through them; `W10` is the last. Here the run is stated with each result buffer, and each argument, at `W10`:
  what those contents ARE is read back in the modules that follow.
-/
import proofs.«104886_j27144193311129_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the node result and the edge result
    at the last boundary's contents and the nine arguments as launched. -/
theorem run_named : θ_run defs (onTc (τ := τ) (main (F := F))) ⟨m, fun _ => 0, ρ⟩ (fun r => ∀ c : Dev nD,
      r.2.mem ((c.tc : Thread nD τ).loc main_v47) = W10 m ρ c (Proc.devRef .tc main_v47)
      ∧ r.2.mem ((c.tc : Thread nD τ).loc main_v34) = W10 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v47 (by decide)),
       h c _ (mem_uc main_v34 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Algebra.lean ====
/-
  The algebra that joins the two programs, on the extended reals.
  A sum over 256 (or 384) terms is the sum of its consecutive runs of 128: addition of extended reals is
  commutative and associative, so regrouping a finite sum needs no finiteness.
  A quotient by a divisor that is not zero is the product with that divisor's reciprocal: both are the product with
  the divisor's inverse.
-/
import Idealize.ShloMosaic.PureOps.Ideal
import Mathlib.Algebra.BigOperators.Fin

noncomputable section

open scoped BigOperators

namespace Cert.Layer

open Idealize.ShloMosaic

/-- Row `k` of the first block of 128 rows of a 256-row matrix. -/
abbrev lo2 (k : Fin 128) : Fin 256 := ⟨k.val, by omega⟩
/-- Row `k` of the second block of 128 rows of a 256-row matrix. -/
abbrev hi2 (k : Fin 128) : Fin 256 := ⟨128 + k.val, by omega⟩
/-- Row `k` of the first block of 128 rows of a 384-row matrix. -/
abbrev lo3 (k : Fin 128) : Fin 384 := ⟨k.val, by omega⟩
/-- Row `k` of the second block of 128 rows of a 384-row matrix. -/
abbrev mid3 (k : Fin 128) : Fin 384 := ⟨128 + k.val, by omega⟩
/-- Row `k` of the third block of 128 rows of a 384-row matrix. -/
abbrev hi3 (k : Fin 128) : Fin 384 := ⟨256 + k.val, by omega⟩

/-- A sum over 256 indices is the sum over the first 128 plus the sum over the last 128. -/
theorem sum_two_blocks (f : Fin 256 → EReal) :
    ∑ k : Fin 256, f k = (∑ k : Fin 128, f (lo2 k)) + ∑ k : Fin 128, f (hi2 k) := by
  have h := Fin.sum_univ_add (M := EReal) (a := 128) (b := 128) f
  exact h

/-- A sum over 384 indices is the sum of its three consecutive runs of 128. -/
theorem sum_three_blocks (f : Fin 384 → EReal) :
    ∑ k : Fin 384, f k = ((∑ k : Fin 128, f (lo3 k)) + ∑ k : Fin 128, f (mid3 k)) + ∑ k : Fin 128, f (hi3 k) := by
  have h := Fin.sum_univ_add (M := EReal) (a := 256) (b := 128) f
  have h2 := Fin.sum_univ_add (M := EReal) (a := 128) (b := 128) (fun k : Fin 256 => f (Fin.castAdd 128 k))
  refine h.trans ?_
  rw [h2]
  refine congrArg₂ (· + ·) (congrArg₂ (· + ·) rfl (Finset.sum_congr rfl fun k _ => congrArg f (Fin.ext ?_))) (Finset.sum_congr rfl fun k _ => congrArg f (Fin.ext ?_))
  · rfl
  · rfl

/-- The float zero every rectifier compares with, as the word it is written with. -/
abbrev zeroWord : EReal := Ideal.ofBits .f32 0x00000000#32
/-- The float one the degree is clamped below by, as the word it is written with. -/
abbrev oneWord : EReal := Ideal.ofBits .f32 0x3F800000#32

/-- The word of the float one denotes the real one. -/
theorem oneWord_eq : oneWord = 1 := by
  simp [oneWord, Ideal.ofBits, Ideal.ieee, -EReal.coe_mul]; norm_num

/-- A maximum with one is not zero. -/
theorem max_one_ne_zero (x : EReal) : max x 1 ≠ 0 :=
  ne_of_gt (lt_of_lt_of_le zero_lt_one (le_max_right x 1))

/-- Dividing by a divisor that is not zero is multiplying by its reciprocal. -/
theorem div_eq_mul_recip (a d : EReal) (hd : d ≠ 0) : Ideal.div a d = a * Ideal.div 1 d := by
  rw [Ideal.div, if_neg hd, Ideal.div, if_neg hd, one_mul]

/-- A quotient by a degree clamped below by one is the product with that clamped degree's reciprocal: the clamped
    degree is at least one, so it is not zero, and both sides are the product with its inverse. -/
theorem div_clamped (a deg : EReal) : Ideal.div a (max deg oneWord) = a * Ideal.div oneWord (max deg oneWord) := by
  rw [oneWord_eq]
  exact div_eq_mul_recip a (max deg 1) (max_one_ne_zero deg)

end Cert.Layer

end
-- ==== Proof.Rows.lean ====
/-
  The two kernels' matrix products read at an entry, at the exact instance: entry (p, q) of a block of rows times a
  128 × 128 matrix, into a zero accumulator, is the sum over k of the block's (p, k) times the matrix's (k, q).
  And a column of per-row scalars broadcast along the lanes reads, at (p, q), the scalar of row p.
-/
import proofs.«104886_j27144193311129_2_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.Rows

open Cert.KernelIdeal Idealize.ShloMosaic Idealize.ShloMosaic.ValueIdx

/-- The edge kernel's product: a 6400 × 128 block times a 128 × 128 matrix. -/
abbrev De := dot_S6400x128_S128x128_S6400x128_1_0_0_1_n_n
/-- The node kernel's product: a 5000 × 128 block times a 128 × 128 matrix. -/
abbrev Dn := dot_S5000x128_S128x128_S5000x128_1_0_0_1_n_n

theorem De_l0 (i : S6400x128.Idx) (q : De.contr.Idx) : (De.lhsIdx i q 0).val = (i 0).val := by
  unfold DotDims.lhsIdx
  rw [dif_neg (show ¬(0 : Fin S6400x128.rank) ∈ De.lhsBatch by decide), dif_pos (show (0 : Fin S6400x128.rank) ∈ De.lhsNonContracting by decide)]
  rfl
theorem De_l1 (i : S6400x128.Idx) (q : De.contr.Idx) : (De.lhsIdx i q 1).val = (q ⟨0, by decide⟩).val :=
  De.lhsIdx_val_of_single rfl i q
theorem De_r0 (i : S6400x128.Idx) (q : De.contr.Idx) : (De.rhsIdx i q 0).val = (q ⟨0, by decide⟩).val :=
  De.rhsIdx_val_of_single rfl i q
theorem De_r1 (i : S6400x128.Idx) (q : De.contr.Idx) : (De.rhsIdx i q 1).val = (i 1).val := by
  unfold DotDims.rhsIdx
  rw [dif_neg (show ¬(1 : Fin S128x128.rank) ∈ De.rhsBatch by decide), dif_pos (show (1 : Fin S128x128.rank) ∈ De.rhsNonContracting by decide)]
  rfl

/-- The edge kernel's product into a zero accumulator, at entry (p, q). -/
theorem matmul_edge {φ₁ φ₂ : FTy} (x : FVec Ideal S6400x128 φ₁) (w : FVec Ideal S128x128 φ₂) (p : Fin 6400) (q : Fin 128) :
    matmul De none x w (constant S6400x128 .f32 0x00000000#32) (ix2 p q) = ∑ k : Fin 128, x (ix2 p k) * w (ix2 k q) := by
  refine (Ideal.matmul_constant_zero_apply De none x w (ix2 p q)).trans ?_
  rw [← Equiv.sum_comp (contrEquiv1 De 128 rfl rfl).symm]
  refine Finset.sum_congr rfl fun k _ => ?_
  have hk := contrEquiv1_symm_val De 128 rfl rfl k
  have el : De.lhsIdx (ix2 p q) ((contrEquiv1 De 128 rfl rfl).symm k) = ix2 p k := funext fun a => Fin.ext (by
    match a with
    | ⟨0, _⟩ => exact De_l0 _ _
    | ⟨1, _⟩ => exact (De_l1 _ _).trans hk)
  have er : De.rhsIdx (ix2 p q) ((contrEquiv1 De 128 rfl rfl).symm k) = ix2 k q := funext fun a => Fin.ext (by
    match a with
    | ⟨0, _⟩ => exact (De_r0 _ _).trans hk
    | ⟨1, _⟩ => exact De_r1 _ _)
  rw [el, er]

theorem Dn_l0 (i : S5000x128.Idx) (q : Dn.contr.Idx) : (Dn.lhsIdx i q 0).val = (i 0).val := by
  unfold DotDims.lhsIdx
  rw [dif_neg (show ¬(0 : Fin S5000x128.rank) ∈ Dn.lhsBatch by decide), dif_pos (show (0 : Fin S5000x128.rank) ∈ Dn.lhsNonContracting by decide)]
  rfl
theorem Dn_l1 (i : S5000x128.Idx) (q : Dn.contr.Idx) : (Dn.lhsIdx i q 1).val = (q ⟨0, by decide⟩).val :=
  Dn.lhsIdx_val_of_single rfl i q
theorem Dn_r0 (i : S5000x128.Idx) (q : Dn.contr.Idx) : (Dn.rhsIdx i q 0).val = (q ⟨0, by decide⟩).val :=
  Dn.rhsIdx_val_of_single rfl i q
theorem Dn_r1 (i : S5000x128.Idx) (q : Dn.contr.Idx) : (Dn.rhsIdx i q 1).val = (i 1).val := by
  unfold DotDims.rhsIdx
  rw [dif_neg (show ¬(1 : Fin S128x128.rank) ∈ Dn.rhsBatch by decide), dif_pos (show (1 : Fin S128x128.rank) ∈ Dn.rhsNonContracting by decide)]
  rfl

/-- The node kernel's product into a zero accumulator, at entry (p, q). -/
theorem matmul_node {φ₁ φ₂ : FTy} (x : FVec Ideal S5000x128 φ₁) (w : FVec Ideal S128x128 φ₂) (p : Fin 5000) (q : Fin 128) :
    matmul Dn none x w (constant S5000x128 .f32 0x00000000#32) (ix2 p q) = ∑ k : Fin 128, x (ix2 p k) * w (ix2 k q) := by
  refine (Ideal.matmul_constant_zero_apply Dn none x w (ix2 p q)).trans ?_
  rw [← Equiv.sum_comp (contrEquiv1 Dn 128 rfl rfl).symm]
  refine Finset.sum_congr rfl fun k _ => ?_
  have hk := contrEquiv1_symm_val Dn 128 rfl rfl k
  have el : Dn.lhsIdx (ix2 p q) ((contrEquiv1 Dn 128 rfl rfl).symm k) = ix2 p k := funext fun a => Fin.ext (by
    match a with
    | ⟨0, _⟩ => exact Dn_l0 _ _
    | ⟨1, _⟩ => exact (Dn_l1 _ _).trans hk)
  have er : Dn.rhsIdx (ix2 p q) ((contrEquiv1 Dn 128 rfl rfl).symm k) = ix2 k q := funext fun a => Fin.ext (by
    match a with
    | ⟨0, _⟩ => exact (Dn_r0 _ _).trans hk
    | ⟨1, _⟩ => exact Dn_r1 _ _)
  rw [el, er]

/-- A column of one scalar per row, broadcast along the lanes, reads at (p, q) the scalar of row p. -/
theorem broadcastTo_a1_ab_apply {α : Type} {a b : ℕ} (hb : b ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Rows

end
-- ==== Proof.Bodies.lean ====
/-
  What each kernel body stores, read at an entry, at the exact instance (a change of float format is the identity
  there, so the roundings to bf16 on the way into the products vanish).
  Edge kernel, per block of 6400 edges: the message entry (p, q) is
    max (Σₖ hu[p,k]·Pₕ[k,q] + Σₖ e[p,k]·Pₑ[k,q] + b[q], 0)
  and the new edge feature is
    max (Σₖ e[p,k]·Wₑ[k,q] + Σₖ hu[p,k]·Wᵤ[k,q] + Σₖ hv[p,k]·Wᵥ[k,q] + b[q], 0).
  Node kernel, per block of 5000 nodes: with s[p] the row's scale,
    max (Σₖ h[p,k]·Qₕ[k,q] + Σₖ (agg[p,k]·s[p])·Qₐ[k,q] + b[q], 0).
  The zero of each maximum is kept as the float word it is written with.
-/
import proofs.«104886_j27144193311129_2_alg».proof.Proof.Gen.KernelIdeal.Skeleton
import proofs.«104886_j27144193311129_2_alg».proof.Proof.Rows
import Idealize.ShloMosaic.Lib.ValueLayout

noncomputable section

open scoped BigOperators

namespace Cert.KernelIdeal.Bodies

open Cert.KernelIdeal Cert.KernelIdeal.Gen Cert.KernelIdeal.Rows Idealize.ShloMosaic Idealize.ShloMosaic.ValueIdx

/-- The float zero every rectifier compares with, as its word. -/
abbrev zeroWord : EReal := Ideal.ofBits .f32 0x00000000#32

/-- The message block at entry (p, q). -/
theorem msg_at (x0 : FVec Ideal S6400x128 .bf16) (x2 : FVec Ideal S6400x128 .f32) (x3 x4 : FVec Ideal S128x128 .f32)
    (x5 : FVec Ideal S1x128 .f32) (p : Fin 6400) (q : Fin 128) :
    k0_pay7 (F := Ideal) x0 x2 x3 x4 x5 (ix2 p q)
      = max (((∑ k : Fin 128, x0 (ix2 p k) * x3 (ix2 k q)) + ∑ k : Fin 128, x2 (ix2 p k) * x4 (ix2 k q))
          + x5 (ix2 (0 : Fin 1) q)) zeroWord := by
  unfold k0_pay7 k0_pay2 k0_pay4
  simp only [shapeCast_self]
  rw [maximumf_apply, addf_apply, addf_apply, matmul_edge, matmul_edge, broadcastTo_1b_ab_apply, broadcast_apply]
  rfl

/-- The new edge-feature block at entry (p, q). -/
theorem enew_at (x0 x1 : FVec Ideal S6400x128 .bf16) (x2 : FVec Ideal S6400x128 .f32) (x6 x7 x8 : FVec Ideal S128x128 .f32)
    (x9 : FVec Ideal S1x128 .f32) (p : Fin 6400) (q : Fin 128) :
    k0_pay1 (F := Ideal) (k0_pay2 x0) (k0_pay3 x1) (k0_pay5 x7) (k0_pay6 x8) (k0_pay8 x2 x6) (constant S6400x128 .f32 0x00000000#32) x9 (ix2 p q)
      = max ((((∑ k : Fin 128, x2 (ix2 p k) * x6 (ix2 k q)) + ∑ k : Fin 128, x0 (ix2 p k) * x7 (ix2 k q))
          + ∑ k : Fin 128, x1 (ix2 p k) * x8 (ix2 k q)) + x9 (ix2 (0 : Fin 1) q)) zeroWord := by
  unfold k0_pay1 k0_pay2 k0_pay3 k0_pay5 k0_pay6 k0_pay8 k0_pay4
  simp only [shapeCast_self]
  rw [maximumf_apply, addf_apply, addf_apply, addf_apply, matmul_edge, matmul_edge, matmul_edge, broadcastTo_1b_ab_apply, broadcast_apply]
  rfl

/-- A block of rows scaled row by row, at entry (p, k). -/
theorem scaled_at (v2 : FVec Ideal S5000x128 .f32) (v4 : FVec Ideal S5000x1 .f32) (p : Fin 5000) (k : Fin 128) :
    mulf v2 (broadcastTo S5000x128 v4 broadcasts_S5000x1_S5000x128) (ix2 p k) = v2 (ix2 p k) * v4 (ix2 p (0 : Fin 1)) := by
  rw [mulf_apply, broadcastTo_a1_ab_apply (by decide)]

/-- The new node-feature block at entry (p, q). -/
theorem hnew_at (v0 v2 : FVec Ideal S5000x128 .f32) (v4 : FVec Ideal S5000x1 .f32) (v9 v12 : FVec Ideal S128x128 .f32)
    (v18 : FVec Ideal S1x128 .f32) (p : Fin 5000) (q : Fin 128) :
    k1_pay1 (F := Ideal) v0 v2 v4 v9 v12 v18 (ix2 p q)
      = max (((∑ k : Fin 128, v0 (ix2 p k) * v9 (ix2 k q)) + ∑ k : Fin 128, (v2 (ix2 p k) * v4 (ix2 p (0 : Fin 1))) * v12 (ix2 k q))
          + v18 (ix2 (0 : Fin 1) q)) zeroWord := by
  unfold k1_pay1
  simp only [shapeCast_self]
  rw [maximumf_apply, addf_apply, addf_apply, matmul_node, matmul_node, broadcastTo_1b_ab_apply, broadcast_apply]
  simp only [truncf_apply, scaled_at]
  rfl

end Cert.KernelIdeal.Bodies

end
-- ==== Proof.EdgeRegion.lean ====
/-
  The edge region, at the contents `V` it is entered with. Its grid has 98 points; point t works on rows
  6400·t … 6400·t + 6399 of the three row-blocked operands (gathered source features, gathered target features, edge
  features, all padded to 627200 rows) and on the whole of each weight block and bias row, and writes back the same
  rows of the two results. So each result array, after the region, is ONE function of the operand arrays, row by
  row: the message and the new edge feature of that row (Bodies.lean), for every row of the padded arrays.
-/
import proofs.«104886_j27144193311129_2_alg».proof.Proof.Gen.KernelIdeal.Frame
import proofs.«104886_j27144193311129_2_alg».proof.Proof.Bodies

set_option maxRecDepth 16384

noncomputable section

open scoped BigOperators

namespace Cert.KernelIdeal.EdgeRegion

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row-blocked operands and the two results take block
    (t, 0) at point t; every weight block and bias row takes block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## Each operand's block at a point, read off its array -/

theorem read0 (c : Dev nD) (t : Fin cfg0.N) (p : Fin 6400) (k : Fin 128) (r : Fin 627200) (hr : r.val = t.val * 6400 + p.val) :
    iblk0 V c 0 t (ix2 p k) = V c main_v19 (ix2 r k) := by
  show V c main_v19 (((cfg0.win 0).blk t).view.emb (ix2 p k)) = V c main_v19 (ix2 r k)
  refine congrArg (V c main_v19) (funext fun a => Fin.ext ?_)
  have e0 : win0_0.index t (0 : Fin 2) = t.val := (idx0 t).1.1
  have e1 : win0_0.index t (1 : Fin 2) = 0 := (idx0 t).1.2
  match a with
  | ⟨0, _⟩ => show win0_0.index t (0 : Fin 2) * 6400 + 1 * p.val = r.val; omega
  | ⟨1, _⟩ => show win0_0.index t (1 : Fin 2) * 128 + 1 * k.val = k.val; omega

theorem read1 (c : Dev nD) (t : Fin cfg0.N) (p : Fin 6400) (k : Fin 128) (r : Fin 627200) (hr : r.val = t.val * 6400 + p.val) :
    iblk0 V c 1 t (ix2 p k) = V c main_v20 (ix2 r k) := by
  show V c main_v20 (((cfg0.win 1).blk t).view.emb (ix2 p k)) = V c main_v20 (ix2 r k)
  refine congrArg (V c main_v20) (funext fun a => Fin.ext ?_)
  have e0 : win0_1.index t (0 : Fin 2) = t.val := (idx0 t).2.1.1
  have e1 : win0_1.index t (1 : Fin 2) = 0 := (idx0 t).2.1.2
  match a with
  | ⟨0, _⟩ => show win0_1.index t (0 : Fin 2) * 6400 + 1 * p.val = r.val; omega
  | ⟨1, _⟩ => show win0_1.index t (1 : Fin 2) * 128 + 1 * k.val = k.val; omega

theorem read2 (c : Dev nD) (t : Fin cfg0.N) (p : Fin 6400) (k : Fin 128) (r : Fin 627200) (hr : r.val = t.val * 6400 + p.val) :
    iblk0 V c 2 t (ix2 p k) = V c main_v21 (ix2 r k) := by
  show V c main_v21 (((cfg0.win 2).blk t).view.emb (ix2 p k)) = V c main_v21 (ix2 r k)
  refine congrArg (V c main_v21) (funext fun a => Fin.ext ?_)
  have e0 : win0_2.index t (0 : Fin 2) = t.val := (idx0 t).2.2.1.1
  have e1 : win0_2.index t (1 : Fin 2) = 0 := (idx0 t).2.2.1.2
  match a with
  | ⟨0, _⟩ => show win0_2.index t (0 : Fin 2) * 6400 + 1 * p.val = r.val; omega
  | ⟨1, _⟩ => show win0_2.index t (1 : Fin 2) * 128 + 1 * k.val = k.val; omega

theorem read3 (c : Dev nD) (t : Fin cfg0.N) (y : S128x128.Idx) : iblk0 V c 3 t y = V c main_v22 y := by
  show V c main_v22 (((cfg0.win 3).blk t).view.emb y) = V c main_v22 y
  refine congrArg (V c main_v22) (funext fun a => Fin.ext ?_)
  have e0 : win0_3.index t (0 : Fin 2) = 0 := (idx0 t).2.2.2.1.1
  have e1 : win0_3.index t (1 : Fin 2) = 0 := (idx0 t).2.2.2.1.2
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read4 (c : Dev nD) (t : Fin cfg0.N) (y : S128x128.Idx) : iblk0 V c 4 t y = V c main_v23 y := by
  show V c main_v23 (((cfg0.win 4).blk t).view.emb y) = V c main_v23 y
  refine congrArg (V c main_v23) (funext fun a => Fin.ext ?_)
  have e0 : win0_4.index t (0 : Fin 2) = 0 := (idx0 t).2.2.2.2.1.1
  have e1 : win0_4.index t (1 : Fin 2) = 0 := (idx0 t).2.2.2.2.1.2
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem read5 (c : Dev nD) (t : Fin cfg0.N) (y : S1x128.Idx) : iblk0 V c 5 t y = V c main_v29 y := by
  show V c main_v29 (((cfg0.win 5).blk t).view.emb y) = V c main_v29 y
  refine congrArg (V c main_v29) (funext fun a => Fin.ext ?_)
  have e0 : win0_5.index t (0 : Fin 2) = 0 := (idx0 t).2.2.2.2.2.1.1
  have e1 : win0_5.index t (1 : Fin 2) = 0 := (idx0 t).2.2.2.2.2.1.2
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem read6 (c : Dev nD) (t : Fin cfg0.N) (y : S128x128.Idx) : iblk0 V c 6 t y = V c main_v24 y := by
  show V c main_v24 (((cfg0.win 6).blk t).view.emb y) = V c main_v24 y
  refine congrArg (V c main_v24) (funext fun a => Fin.ext ?_)
  have e0 : win0_6.index t (0 : Fin 2) = 0 := (idx0 t).2.2.2.2.2.2.1.1
  have e1 : win0_6.index t (1 : Fin 2) = 0 := (idx0 t).2.2.2.2.2.2.1.2
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem read7 (c : Dev nD) (t : Fin cfg0.N) (y : S128x128.Idx) : iblk0 V c 7 t y = V c main_v25 y := by
  show V c main_v25 (((cfg0.win 7).blk t).view.emb y) = V c main_v25 y
  refine congrArg (V c main_v25) (funext fun a => Fin.ext ?_)
  have e0 : win0_7.index t (0 : Fin 2) = 0 := (idx0 t).2.2.2.2.2.2.2.1.1
  have e1 : win0_7.index t (1 : Fin 2) = 0 := (idx0 t).2.2.2.2.2.2.2.1.2
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem read8 (c : Dev nD) (t : Fin cfg0.N) (y : S128x128.Idx) : iblk0 V c 8 t y = V c main_v26 y := by
  show V c main_v26 (((cfg0.win 8).blk t).view.emb y) = V c main_v26 y
  refine congrArg (V c main_v26) (funext fun a => Fin.ext ?_)
  have e0 : win0_8.index t (0 : Fin 2) = 0 := (idx0 t).2.2.2.2.2.2.2.2.1.1
  have e1 : win0_8.index t (1 : Fin 2) = 0 := (idx0 t).2.2.2.2.2.2.2.2.1.2
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem read9 (c : Dev nD) (t : Fin cfg0.N) (y : S1x128.Idx) : iblk0 V c 9 t y = V c main_v30 y := by
  show V c main_v30 (((cfg0.win 9).blk t).view.emb y) = V c main_v30 y
  refine congrArg (V c main_v30) (funext fun a => Fin.ext ?_)
  have e0 : win0_9.index t (0 : Fin 2) = 0 := (idx0 t).2.2.2.2.2.2.2.2.2.1.1
  have e1 : win0_9.index t (1 : Fin 2) = 0 := (idx0 t).2.2.2.2.2.2.2.2.2.1.2
  match a with
  | ⟨0, _⟩ => show win0_9.index t (0 : Fin 2) * 1 + 1 * (y 0).val = (y 0).val; omega
  | ⟨1, _⟩ => show win0_9.index t (1 : Fin 2) * 128 + 1 * (y 1).val = (y 1).val; omega

/-! ## The two results as functions of the operand arrays -/

/-- The message of row r at lane q. -/
def msgRow (a0 : FVec Ideal S627200x128 .bf16) (a2 : FVec Ideal S627200x128 .f32) (a3 a4 : FVec Ideal S128x128 .f32)
    (a5 : FVec Ideal S1x128 .f32) (r : Fin 627200) (q : Fin 128) : EReal :=
  max (((∑ k : Fin 128, a0 (ix2 r k) * a3 (ix2 k q)) + ∑ k : Fin 128, a2 (ix2 r k) * a4 (ix2 k q))
    + a5 (ix2 (0 : Fin 1) q)) zeroWord

/-- The messages of all padded rows. -/
def msgPad (a0 : FVec Ideal S627200x128 .bf16) (a2 : FVec Ideal S627200x128 .f32) (a3 a4 : FVec Ideal S128x128 .f32)
    (a5 : FVec Ideal S1x128 .f32) : FVec Ideal S627200x128 .f32 := fun i => msgRow a0 a2 a3 a4 a5 (i 0) (i 1)

theorem msgPad_apply (a0 : FVec Ideal S627200x128 .bf16) (a2 : FVec Ideal S627200x128 .f32) (a3 a4 : FVec Ideal S128x128 .f32)
    (a5 : FVec Ideal S1x128 .f32) (i : S627200x128.Idx) (r : Fin 627200) (q : Fin 128) (h0 : (i 0).val = r.val) (h1 : (i 1).val = q.val) :
    msgPad a0 a2 a3 a4 a5 i = msgRow a0 a2 a3 a4 a5 r q := by
  have e0 : i 0 = r := Fin.ext h0
  have e1 : i 1 = q := Fin.ext h1
  unfold msgPad
  rw [e0, e1]

/-- The new edge feature of row r at lane q. -/
def enewRow (a0 a1 : FVec Ideal S627200x128 .bf16) (a2 : FVec Ideal S627200x128 .f32) (a6 a7 a8 : FVec Ideal S128x128 .f32)
    (a9 : FVec Ideal S1x128 .f32) (r : Fin 627200) (q : Fin 128) : EReal :=
  max ((((∑ k : Fin 128, a2 (ix2 r k) * a6 (ix2 k q)) + ∑ k : Fin 128, a0 (ix2 r k) * a7 (ix2 k q))
    + ∑ k : Fin 128, a1 (ix2 r k) * a8 (ix2 k q)) + a9 (ix2 (0 : Fin 1) q)) zeroWord

/-- The new edge features of all padded rows. -/
def enewPad (a0 a1 : FVec Ideal S627200x128 .bf16) (a2 : FVec Ideal S627200x128 .f32) (a6 a7 a8 : FVec Ideal S128x128 .f32)
    (a9 : FVec Ideal S1x128 .f32) : FVec Ideal S627200x128 .f32 := fun i => enewRow a0 a1 a2 a6 a7 a8 a9 (i 0) (i 1)

theorem enewPad_apply (a0 a1 : FVec Ideal S627200x128 .bf16) (a2 : FVec Ideal S627200x128 .f32) (a6 a7 a8 : FVec Ideal S128x128 .f32)
    (a9 : FVec Ideal S1x128 .f32) (i : S627200x128.Idx) (r : Fin 627200) (q : Fin 128) (h0 : (i 0).val = r.val) (h1 : (i 1).val = q.val) :
    enewPad a0 a1 a2 a6 a7 a8 a9 i = enewRow a0 a1 a2 a6 a7 a8 a9 r q := by
  have e0 : i 0 = r := Fin.ext h0
  have e1 : i 1 = q := Fin.ext h1
  unfold enewPad
  rw [e0, e1]

/-! ## What a point writes back -/

/-- Point t writes back block t of the messages. -/
theorem flushed_msg (c : Dev nD) (t : Fin cfg0.N) :
    (dat0 V c).flushed 10 t = ((cfg0.win 10).blk t).view.read (Elt Ideal)
      (msgPad (V c main_v19) (V c main_v21) (V c main_v22) (V c main_v23) (V c main_v29)) := by
  show (cfg0.win 10).cut (grid0.coords t) ((dat0 V c).after 10 t) = _
  rw [after0_10]
  unfold out0_10
  rw [View.canon_unit_zero hz]
  simp only [View.ld_unit_zero (S := S6400x128) hz, View.ld_unit_zero (S := S128x128) hz, View.ld_unit_zero (S := S1x128) hz]
  have ht : t.val < 98 := lt_of_lt_of_eq t.isLt N_0
  have ea0 : win0_10.index t (0 : Fin 2) = t.val := (idx0 t).2.2.2.2.2.2.2.2.2.2.1.1
  have ea1 : win0_10.index t (1 : Fin 2) = 0 := (idx0 t).2.2.2.2.2.2.2.2.2.2.1.2
  funext y
  obtain ⟨p, q, rfl⟩ : ∃ (p : Fin 6400) (q : Fin 128), y = ix2 p q := ⟨y 0, y 1, eq_ix2 y⟩
  have hp : p.val < 6400 := p.isLt
  refine (msg_at _ _ _ _ _ p q).trans ?_
  refine Eq.trans ?_ (msgPad_apply _ _ _ _ _ (((cfg0.win 10).blk t).view.emb (ix2 p q)) ⟨t.val * 6400 + p.val, by omega⟩ q ?_ ?_).symm
  · unfold msgRow
    refine congrArg₂ max (congrArg₂ (· + ·) (congrArg₂ (· + ·)
      (Finset.sum_congr rfl fun k _ => congrArg₂ (· * ·) (read0 V c t p k _ rfl) (read3 V c t (ix2 k q)))
      (Finset.sum_congr rfl fun k _ => congrArg₂ (· * ·) (read2 V c t p k _ rfl) (read4 V c t (ix2 k q))))
      (read5 V c t (ix2 (0 : Fin 1) q))) rfl
  · show win0_10.index t (0 : Fin 2) * 6400 + 1 * p.val = t.val * 6400 + p.val; omega
  · show win0_10.index t (1 : Fin 2) * 128 + 1 * q.val = q.val; omega

/-- Point t writes back block t of the new edge features. -/
theorem flushed_enew (c : Dev nD) (t : Fin cfg0.N) :
    (dat0 V c).flushed 11 t = ((cfg0.win 11).blk t).view.read (Elt Ideal)
      (enewPad (V c main_v19) (V c main_v20) (V c main_v21) (V c main_v24) (V c main_v25) (V c main_v26) (V c main_v30)) := by
  show (cfg0.win 11).cut (grid0.coords t) ((dat0 V c).after 11 t) = _
  rw [after0_11]
  unfold out0_11
  rw [View.canon_unit_zero hz]
  simp only [View.ld_unit_zero (S := S6400x128) hz, View.ld_unit_zero (S := S128x128) hz, View.ld_unit_zero (S := S1x128) hz]
  have ht : t.val < 98 := lt_of_lt_of_eq t.isLt N_0
  have eb0 : win0_11.index t (0 : Fin 2) = t.val := (idx0 t).2.2.2.2.2.2.2.2.2.2.2.1
  have eb1 : win0_11.index t (1 : Fin 2) = 0 := (idx0 t).2.2.2.2.2.2.2.2.2.2.2.2
  funext y
  obtain ⟨p, q, rfl⟩ : ∃ (p : Fin 6400) (q : Fin 128), y = ix2 p q := ⟨y 0, y 1, eq_ix2 y⟩
  have hp : p.val < 6400 := p.isLt
  refine (enew_at _ _ _ _ _ _ _ p q).trans ?_
  refine Eq.trans ?_ (enewPad_apply _ _ _ _ _ _ _ (((cfg0.win 11).blk t).view.emb (ix2 p q)) ⟨t.val * 6400 + p.val, by omega⟩ q ?_ ?_).symm
  · unfold enewRow
    refine congrArg₂ max (congrArg₂ (· + ·) (congrArg₂ (· + ·) (congrArg₂ (· + ·)
      (Finset.sum_congr rfl fun k _ => congrArg₂ (· * ·) (read2 V c t p k _ rfl) (read6 V c t (ix2 k q)))
      (Finset.sum_congr rfl fun k _ => congrArg₂ (· * ·) (read0 V c t p k _ rfl) (read7 V c t (ix2 k q))))
      (Finset.sum_congr rfl fun k _ => congrArg₂ (· * ·) (read1 V c t p k _ rfl) (read8 V c t (ix2 k q))))
      (read9 V c t (ix2 (0 : Fin 1) q))) rfl
  · show win0_11.index t (0 : Fin 2) * 6400 + 1 * p.val = t.val * 6400 + p.val; omega
  · show win0_11.index t (1 : Fin 2) * 128 + 1 * q.val = q.val; omega

/-! ## The blocks cover the padded arrays -/

/-- An index of the padded array is in point `t`'s block of window 10 iff each coordinate is in the block's range. -/
theorem mem_blk10 (t : Fin cfg0.N) (i : S627200x128.Idx) :
    i ∈ ((cfg0.win 10).blk t).view.set ↔ ∀ a : Fin 2, win0_10.index t a * S6400x128.size a ≤ (i a).val ∧ (i a).val < win0_10.index t a * S6400x128.size a + S6400x128.size a := by
  show i ∈ ((View.whole main_v32_0).slice (win0_10.rect t)).set ↔ _
  rw [View.set_slice_whole, Rect.mem_set_unit]
  exact Iff.rfl

/-- Every row of the padded array lies in the block of the point numbered by the row's quotient by 6400. -/
theorem cover10 (i : S627200x128.Idx) : ∃ t : Fin cfg0.N, (cfg0.win 10).flush t = true ∧ i ∈ ((cfg0.win 10).blk t).view.set := by
  have hi0 : (i 0).val < 627200 := (i 0).isLt
  have hi1 : (i 1).val < 128 := (i 1).isLt
  have hN : cfg0.N = 98 := N_0
  refine ⟨⟨(i 0).val / 6400, by rw [hN]; omega⟩, flush0_10 _, ?_⟩
  rw [mem_blk10]
  have e0 := (idx0 ⟨(i 0).val / 6400, by rw [hN]; omega⟩).2.2.2.2.2.2.2.2.2.2.1.1
  have e1 := (idx0 ⟨(i 0).val / 6400, by rw [hN]; omega⟩).2.2.2.2.2.2.2.2.2.2.1.2
  intro a
  match a with
  | ⟨0, _⟩ =>
    show win0_10.index ⟨(i 0).val / 6400, _⟩ (0 : Fin 2) * 6400 ≤ (i 0).val ∧ (i 0).val < win0_10.index ⟨(i 0).val / 6400, _⟩ (0 : Fin 2) * 6400 + 6400
    rw [e0]; show (i 0).val / 6400 * 6400 ≤ (i 0).val ∧ (i 0).val < (i 0).val / 6400 * 6400 + 6400; omega
  | ⟨1, _⟩ =>
    show win0_10.index ⟨(i 0).val / 6400, _⟩ (1 : Fin 2) * 128 ≤ (i 1).val ∧ (i 1).val < win0_10.index ⟨(i 0).val / 6400, _⟩ (1 : Fin 2) * 128 + 128
    rw [e1]; omega

/-- An index of the padded array is in point `t`'s block of window 11 iff each coordinate is in the block's range. -/
theorem mem_blk11 (t : Fin cfg0.N) (i : S627200x128.Idx) :
    i ∈ ((cfg0.win 11).blk t).view.set ↔ ∀ a : Fin 2, win0_11.index t a * S6400x128.size a ≤ (i a).val ∧ (i a).val < win0_11.index t a * S6400x128.size a + S6400x128.size a := by
  show i ∈ ((View.whole main_v32_1).slice (win0_11.rect t)).set ↔ _
  rw [View.set_slice_whole, Rect.mem_set_unit]
  exact Iff.rfl

/-- Every row of the padded array lies in the block of the point numbered by the row's quotient by 6400. -/
theorem cover11 (i : S627200x128.Idx) : ∃ t : Fin cfg0.N, (cfg0.win 11).flush t = true ∧ i ∈ ((cfg0.win 11).blk t).view.set := by
  have hi0 : (i 0).val < 627200 := (i 0).isLt
  have hi1 : (i 1).val < 128 := (i 1).isLt
  have hN : cfg0.N = 98 := N_0
  refine ⟨⟨(i 0).val / 6400, by rw [hN]; omega⟩, flush0_11 _, ?_⟩
  rw [mem_blk11]
  have e0 := (idx0 ⟨(i 0).val / 6400, by rw [hN]; omega⟩).2.2.2.2.2.2.2.2.2.2.2.1
  have e1 := (idx0 ⟨(i 0).val / 6400, by rw [hN]; omega⟩).2.2.2.2.2.2.2.2.2.2.2.2
  intro a
  match a with
  | ⟨0, _⟩ =>
    show win0_11.index ⟨(i 0).val / 6400, _⟩ (0 : Fin 2) * 6400 ≤ (i 0).val ∧ (i 0).val < win0_11.index ⟨(i 0).val / 6400, _⟩ (0 : Fin 2) * 6400 + 6400
    rw [e0]; show (i 0).val / 6400 * 6400 ≤ (i 0).val ∧ (i 0).val < (i 0).val / 6400 * 6400 + 6400; omega
  | ⟨1, _⟩ =>
    show win0_11.index ⟨(i 0).val / 6400, _⟩ (1 : Fin 2) * 128 ≤ (i 1).val ∧ (i 1).val < win0_11.index ⟨(i 0).val / 6400, _⟩ (1 : Fin 2) * 128 + 128
    rw [e1]; omega

/-! ## The arrays after the region -/

/-- After the region the first result array holds the messages of all padded rows. -/
theorem final_msg (c : Dev nD) : (dat0 V c).arrAt 10 cfg0.N
    = msgPad (V c main_v19) (V c main_v21) (V c main_v22) (V c main_v23) (V c main_v29) :=
  (dat0 V c).arrAt_eq_of_cover 10 _ (fun t _ => flushed_msg V c t) cover10

/-- After the region the second result array holds the new edge features of all padded rows. -/
theorem final_enew (c : Dev nD) : (dat0 V c).arrAt 11 cfg0.N
    = enewPad (V c main_v19) (V c main_v20) (V c main_v21) (V c main_v24) (V c main_v25) (V c main_v26) (V c main_v30) :=
  (dat0 V c).arrAt_eq_of_cover 11 _ (fun t _ => flushed_enew V c t) cover11

end Cert.KernelIdeal.EdgeRegion

end
-- ==== Proof.NodeRegion.lean ====
/-
  The node region, at the contents `V` it is entered with. Its grid has 20 points; point t works on rows
  5000·t … 5000·t + 4999 of the node features, of the summed messages and of the column of per-node scales, on the
  whole of the two weight blocks and the bias row, and writes back the same rows of the result. So the result array,
  after the region, is ONE function of the operand arrays, row by row (Bodies.lean), for every one of the 100000 rows.
-/
import proofs.«104886_j27144193311129_2_alg».proof.Proof.Gen.KernelIdeal.Frame
import proofs.«104886_j27144193311129_2_alg».proof.Proof.Bodies

set_option maxRecDepth 16384

noncomputable section

open scoped BigOperators

namespace Cert.KernelIdeal.NodeRegion

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row-blocked operands and the result take block (t, 0)
    at point t; the weight blocks and the bias row take block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## Each operand's block at a point, read off its array -/

theorem read0 (c : Dev nD) (t : Fin cfg1.N) (p : Fin 5000) (k : Fin 128) (r : Fin 100000) (hr : r.val = t.val * 5000 + p.val) :
    iblk1 V c 0 t (ix2 p k) = V c main_arg0 (ix2 r k) := by
  show V c main_arg0 (((cfg1.win 0).blk t).view.emb (ix2 p k)) = V c main_arg0 (ix2 r k)
  refine congrArg (V c main_arg0) (funext fun a => Fin.ext ?_)
  have e0 : win1_0.index t (0 : Fin 2) = t.val := (idx1 t).1.1
  have e1 : win1_0.index t (1 : Fin 2) = 0 := (idx1 t).1.2
  match a with
  | ⟨0, _⟩ => show win1_0.index t (0 : Fin 2) * 5000 + 1 * p.val = r.val; omega
  | ⟨1, _⟩ => show win1_0.index t (1 : Fin 2) * 128 + 1 * k.val = k.val; omega

theorem read1 (c : Dev nD) (t : Fin cfg1.N) (p : Fin 5000) (k : Fin 128) (r : Fin 100000) (hr : r.val = t.val * 5000 + p.val) :
    iblk1 V c 1 t (ix2 p k) = V c main_v37 (ix2 r k) := by
  show V c main_v37 (((cfg1.win 1).blk t).view.emb (ix2 p k)) = V c main_v37 (ix2 r k)
  refine congrArg (V c main_v37) (funext fun a => Fin.ext ?_)
  have e0 : win1_1.index t (0 : Fin 2) = t.val := (idx1 t).2.1.1
  have e1 : win1_1.index t (1 : Fin 2) = 0 := (idx1 t).2.1.2
  match a with
  | ⟨0, _⟩ => show win1_1.index t (0 : Fin 2) * 5000 + 1 * p.val = r.val; omega
  | ⟨1, _⟩ => show win1_1.index t (1 : Fin 2) * 128 + 1 * k.val = k.val; omega

theorem read2 (c : Dev nD) (t : Fin cfg1.N) (p : Fin 5000) (r : Fin 100000) (hr : r.val = t.val * 5000 + p.val) :
    iblk1 V c 2 t (ix2 p (0 : Fin 1)) = V c main_v46 (ix2 r (0 : Fin 1)) := by
  show V c main_v46 (((cfg1.win 2).blk t).view.emb (ix2 p (0 : Fin 1))) = V c main_v46 (ix2 r (0 : Fin 1))
  refine congrArg (V c main_v46) (funext fun a => Fin.ext ?_)
  have e0 : win1_2.index t (0 : Fin 2) = t.val := (idx1 t).2.2.1.1
  have e1 : win1_2.index t (1 : Fin 2) = 0 := (idx1 t).2.2.1.2
  match a with
  | ⟨0, _⟩ => show win1_2.index t (0 : Fin 2) * 5000 + 1 * p.val = r.val; omega
  | ⟨1, _⟩ => show win1_2.index t (1 : Fin 2) * 1 + 1 * 0 = 0; omega

theorem read3 (c : Dev nD) (t : Fin cfg1.N) (y : S128x128.Idx) : iblk1 V c 3 t y = V c main_v27 y := by
  show V c main_v27 (((cfg1.win 3).blk t).view.emb y) = V c main_v27 y
  refine congrArg (V c main_v27) (funext fun a => Fin.ext ?_)
  have e0 : win1_3.index t (0 : Fin 2) = 0 := (idx1 t).2.2.2.1.1
  have e1 : win1_3.index t (1 : Fin 2) = 0 := (idx1 t).2.2.2.1.2
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem read4 (c : Dev nD) (t : Fin cfg1.N) (y : S128x128.Idx) : iblk1 V c 4 t y = V c main_v28 y := by
  show V c main_v28 (((cfg1.win 4).blk t).view.emb y) = V c main_v28 y
  refine congrArg (V c main_v28) (funext fun a => Fin.ext ?_)
  have e0 : win1_4.index t (0 : Fin 2) = 0 := (idx1 t).2.2.2.2.1.1
  have e1 : win1_4.index t (1 : Fin 2) = 0 := (idx1 t).2.2.2.2.1.2
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem read5 (c : Dev nD) (t : Fin cfg1.N) (y : S1x128.Idx) : iblk1 V c 5 t y = V c main_v31 y := by
  show V c main_v31 (((cfg1.win 5).blk t).view.emb y) = V c main_v31 y
  refine congrArg (V c main_v31) (funext fun a => Fin.ext ?_)
  have e0 : win1_5.index t (0 : Fin 2) = 0 := (idx1 t).2.2.2.2.2.1.1
  have e1 : win1_5.index t (1 : Fin 2) = 0 := (idx1 t).2.2.2.2.2.1.2
  match a with
  | ⟨0, _⟩ => show win1_5.index t (0 : Fin 2) * 1 + 1 * (y 0).val = (y 0).val; omega
  | ⟨1, _⟩ => show win1_5.index t (1 : Fin 2) * 128 + 1 * (y 1).val = (y 1).val; omega

/-! ## The result as a function of the operand arrays -/

/-- The new feature of node r at lane q: `a2` holds one scale per node. -/
def hnewRow (a0 a1 : FVec Ideal S100000x128 .f32) (a2 : FVec Ideal S100000x1 .f32) (a3 a4 : FVec Ideal S128x128 .f32)
    (a5 : FVec Ideal S1x128 .f32) (r : Fin 100000) (q : Fin 128) : EReal :=
  max (((∑ k : Fin 128, a0 (ix2 r k) * a3 (ix2 k q)) + ∑ k : Fin 128, (a1 (ix2 r k) * a2 (ix2 r (0 : Fin 1))) * a4 (ix2 k q))
    + a5 (ix2 (0 : Fin 1) q)) zeroWord

/-- The new features of all nodes. -/
def hnewAll (a0 a1 : FVec Ideal S100000x128 .f32) (a2 : FVec Ideal S100000x1 .f32) (a3 a4 : FVec Ideal S128x128 .f32)
    (a5 : FVec Ideal S1x128 .f32) : FVec Ideal S100000x128 .f32 := fun i => hnewRow a0 a1 a2 a3 a4 a5 (i 0) (i 1)

theorem hnewAll_apply (a0 a1 : FVec Ideal S100000x128 .f32) (a2 : FVec Ideal S100000x1 .f32) (a3 a4 : FVec Ideal S128x128 .f32)
    (a5 : FVec Ideal S1x128 .f32) (i : S100000x128.Idx) (r : Fin 100000) (q : Fin 128) (h0 : (i 0).val = r.val) (h1 : (i 1).val = q.val) :
    hnewAll a0 a1 a2 a3 a4 a5 i = hnewRow a0 a1 a2 a3 a4 a5 r q := by
  have e0 : i 0 = r := Fin.ext h0
  have e1 : i 1 = q := Fin.ext h1
  unfold hnewAll
  rw [e0, e1]

/-! ## What a point writes back -/

/-- Point t writes back block t of the new node features. -/
theorem flushed_hnew (c : Dev nD) (t : Fin cfg1.N) :
    (dat1 V c).flushed 6 t = ((cfg1.win 6).blk t).view.read (Elt Ideal)
      (hnewAll (V c main_arg0) (V c main_v37) (V c main_v46) (V c main_v27) (V c main_v28) (V c main_v31)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  have ht : t.val < 20 := lt_of_lt_of_eq t.isLt N_1
  have e60 : win1_6.index t (0 : Fin 2) = t.val := (idx1 t).2.2.2.2.2.2.1
  have e61 : win1_6.index t (1 : Fin 2) = 0 := (idx1 t).2.2.2.2.2.2.2
  funext y
  obtain ⟨p, q, rfl⟩ : ∃ (p : Fin 5000) (q : Fin 128), y = ix2 p q := ⟨y 0, y 1, eq_ix2 y⟩
  have hp : p.val < 5000 := p.isLt
  refine (hnew_at _ _ _ _ _ _ p q).trans ?_
  refine Eq.trans ?_ (hnewAll_apply _ _ _ _ _ _ (((cfg1.win 6).blk t).view.emb (ix2 p q)) ⟨t.val * 5000 + p.val, by omega⟩ q ?_ ?_).symm
  · unfold hnewRow
    refine congrArg₂ max (congrArg₂ (· + ·) (congrArg₂ (· + ·)
      (Finset.sum_congr rfl fun k _ => congrArg₂ (· * ·) (read0 V c t p k _ rfl) (read3 V c t (ix2 k q)))
      (Finset.sum_congr rfl fun k _ => congrArg₂ (· * ·) (congrArg₂ (· * ·) (read1 V c t p k _ rfl) (read2 V c t p _ rfl)) (read4 V c t (ix2 k q))))
      (read5 V c t (ix2 (0 : Fin 1) q))) rfl
  · show win1_6.index t (0 : Fin 2) * 5000 + 1 * p.val = t.val * 5000 + p.val; omega
  · show win1_6.index t (1 : Fin 2) * 128 + 1 * q.val = q.val; omega

/-! ## The blocks cover the array -/

/-- An index of the array is in point `t`'s block iff each coordinate is in the block's range. -/
theorem mem_blk6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v47).slice (win1_6.rect t)).set ↔ _
  rw [View.set_slice_whole, Rect.mem_set_unit]
  exact Iff.rfl

/-- Every row lies in the block of the point numbered by the row's quotient by 5000. -/
theorem cover6 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_6 _, ?_⟩
  rw [mem_blk6]
  have e0 := (idx1 ⟨(i 0).val / 5000, by rw [hN]; omega⟩).2.2.2.2.2.2.1
  have e1 := (idx1 ⟨(i 0).val / 5000, by rw [hN]; omega⟩).2.2.2.2.2.2.2
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, _⟩ (1 : Fin 2) * 128 ≤ (i 1).val ∧ (i 1).val < win1_6.index ⟨(i 0).val / 5000, _⟩ (1 : Fin 2) * 128 + 128
    rw [e1]; omega

/-! ## The array after the region -/

/-- After the region the result array holds the new features of all nodes. -/
theorem final_hnew (c : Dev nD) : (dat1 V c).arrAt 6 cfg1.N
    = hnewAll (V c main_arg0) (V c main_v37) (V c main_v46) (V c main_v27) (V c main_v28) (V c main_v31) :=
  (dat1 V c).arrAt_eq_of_cover 6 _ (fun t _ => flushed_hnew V c t) cover6

end Cert.KernelIdeal.NodeRegion

end
-- ==== Proof.HostEntry0.lean ====
/-
  What the edge region's operand arrays hold when the region is entered, read at an entry. The host operations before
  the region slice the two index rows out of the edge index, wrap negative indices, gather the rows of h (its change of
  float format is the identity at the exact instance), pad the three edge-long arrays with 2200 zero rows, cut the
  weight matrices into their 128-row blocks and give each bias a leading unit axis. Read at a row below 625000 a padded
  array is the array it pads; a weight block's row k is the matrix's row k, 128 + k or 256 + k; a bias row is the bias.
  The gathered rows are named by the reference's own gather stages: the same operations of the same arguments.
-/
import proofs.«104886_j27144193311129_2_alg».proof.Proof.Gen.KernelIdeal.Frame
import proofs.«104886_j27144193311129_2_alg».proof.Proof.Gen.ReferenceIdeal.Read
import proofs.«104886_j27144193311129_2_alg».proof.Proof.Algebra
import Idealize.ShloMosaic.Lib.KernelVsHost
import Idealize.ShloMosaic.Lib.ValueLayout
set_option maxRecDepth 16384

noncomputable section

open scoped BigOperators

namespace Cert.KernelIdeal.HostEntry0

open Cert.KernelIdeal Cert.KernelIdeal.Gen Cert.Layer
open Idealize.ShloMosaic Idealize.ShloMosaic.TcCoe Idealize.ShloMosaic.ValueIdx Idealize.SL.Sem
open Cert.ReferenceIdeal.Read (val_main_v3 val_main_v10 val_main_v17 val_main_v23 val_main_v26 val_main_v30 val_main_v41 val_main_v47)

variable (m : (ℓ : Loc nD τ sig) → Buf (Elt Ideal) ℓ) (ρ : Dev nD → PrngReg)

/-- The padded source-gathered rows, at a row of a real edge: that edge's gathered row. -/
theorem v19_at (c : Dev nD) (r : Fin 625000) (k : Fin 128) (r' : Fin 627200) (hr : r'.val = r.val) :
    V7 m ρ c main_v19 (ix2 r' k) = (val_main_v10 (F := Ideal) (m ((c : Thread nD τ).loc main_arg0)) (m ((c : Thread nD τ).loc main_arg2))) (ix2 r k) := by
  have e : V7 m ρ c main_v19 = pad S627200x128 ![0, 0] ![2200, 0] ![0, 0] (val_main_v10 (F := Ideal) (m ((c : Thread nD τ).loc main_arg0)) (m ((c : Thread nD τ).loc main_arg2)))
      (sitofp (F := Ideal) .bf16 (constantI S_ 32 0#32)) pads_S625000x128_S627200x128_022000_000 h_S_ := by
    dsimp only [V7, W7, W6, W5, W4, W3, W2, W1, hostOps0, hostOps0_1, hostOps0_2, hostOps0_3, hostOps0_4, hostOps0_5, hostOps0_6]
    after_results_simp <;> rfl
  rw [e]
  exact pad_apply_of_inside _ _ _ _ _ _ _ (ix2 r' k) (ix2 r k) (fun a => match a with
    | ⟨0, _⟩ => by show r'.val = 0 + r.val * (0 + 1); omega
    | ⟨1, _⟩ => by show k.val = 0 + k.val * (0 + 1); omega)

/-- The padded target-gathered rows, at a row of a real edge: that edge's gathered row. -/
theorem v20_at (c : Dev nD) (r : Fin 625000) (k : Fin 128) (r' : Fin 627200) (hr : r'.val = r.val) :
    V7 m ρ c main_v20 (ix2 r' k) = (val_main_v17 (F := Ideal) (m ((c : Thread nD τ).loc main_arg0)) (m ((c : Thread nD τ).loc main_arg2))) (ix2 r k) := by
  have e : V7 m ρ c main_v20 = pad S627200x128 ![0, 0] ![2200, 0] ![0, 0] (val_main_v17 (F := Ideal) (m ((c : Thread nD τ).loc main_arg0)) (m ((c : Thread nD τ).loc main_arg2)))
      (sitofp (F := Ideal) .bf16 (constantI S_ 32 0#32)) pads_S625000x128_S627200x128_022000_000 h_S_ := by
    dsimp only [V7, W7, W6, W5, W4, W3, W2, W1, hostOps0, hostOps0_1, hostOps0_2, hostOps0_3, hostOps0_4, hostOps0_5, hostOps0_6]
    after_results_simp <;> rfl
  rw [e]
  exact pad_apply_of_inside _ _ _ _ _ _ _ (ix2 r' k) (ix2 r k) (fun a => match a with
    | ⟨0, _⟩ => by show r'.val = 0 + r.val * (0 + 1); omega
    | ⟨1, _⟩ => by show k.val = 0 + k.val * (0 + 1); omega)

/-- The padded edge features, at a row of a real edge: that edge's features. -/
theorem v21_at (c : Dev nD) (r : Fin 625000) (k : Fin 128) (r' : Fin 627200) (hr : r'.val = r.val) :
    V7 m ρ c main_v21 (ix2 r' k) = (m ((c : Thread nD τ).loc main_arg1)) (ix2 r k) := by
  have e : V7 m ρ c main_v21 = pad S627200x128 ![0, 0] ![2200, 0] ![0, 0] (m ((c : Thread nD τ).loc main_arg1))
      (sitofp (F := Ideal) .f32 (constantI S_ 32 0#32)) pads_S625000x128_S627200x128_022000_000 h_S_ := by
    dsimp only [V7, W7, W6, W5, W4, W3, W2, W1, hostOps0, hostOps0_1, hostOps0_2, hostOps0_3, hostOps0_4, hostOps0_5, hostOps0_6]
    after_results_simp <;> rfl
  rw [e]
  exact pad_apply_of_inside _ _ _ _ _ _ _ (ix2 r' k) (ix2 r k) (fun a => match a with
    | ⟨0, _⟩ => by show r'.val = 0 + r.val * (0 + 1); omega
    | ⟨1, _⟩ => by show k.val = 0 + k.val * (0 + 1); omega)

/-- The message weights' first block: rows 0 … 127. -/
theorem v22_at (c : Dev nD) (k q : Fin 128) :
    V7 m ρ c main_v22 (ix2 k q) = (m ((c : Thread nD τ).loc main_arg3)) (ix2 (lo2 k) q) := by
  have e : V7 m ρ c main_v22 = extractStridedSlice S128x128 ![0, 0] (m ((c : Thread nD τ).loc main_arg3)) slices_S256x128_S128x128_0_0 := by
    dsimp only [V7, W7, W6, W5, W4, W3, W2, W1, hostOps0, hostOps0_1, hostOps0_2, hostOps0_3, hostOps0_4, hostOps0_5, hostOps0_6]
    after_results_simp <;> rfl
  rw [e]
  exact slice2_axis0_apply 0 _ _ k q (lo2 k) (by show k.val = 0 + k.val; omega)

/-- The message weights' second block: rows 128 … 255. -/
theorem v23_at (c : Dev nD) (k q : Fin 128) :
    V7 m ρ c main_v23 (ix2 k q) = (m ((c : Thread nD τ).loc main_arg3)) (ix2 (hi2 k) q) := by
  have e : V7 m ρ c main_v23 = extractStridedSlice S128x128 ![128, 0] (m ((c : Thread nD τ).loc main_arg3)) slices_S256x128_S128x128_128_0 := by
    dsimp only [V7, W7, W6, W5, W4, W3, W2, W1, hostOps0, hostOps0_1, hostOps0_2, hostOps0_3, hostOps0_4, hostOps0_5, hostOps0_6]
    after_results_simp <;> rfl
  rw [e]
  exact slice2_axis0_apply 128 _ _ k q (hi2 k) (by show 128 + k.val = 128 + k.val; omega)

/-- The edge-update weights' first block: rows 0 … 127. -/
theorem v24_at (c : Dev nD) (k q : Fin 128) :
    V7 m ρ c main_v24 (ix2 k q) = (m ((c : Thread nD τ).loc main_arg7)) (ix2 (lo3 k) q) := by
  have e : V7 m ρ c main_v24 = extractStridedSlice S128x128 ![0, 0] (m ((c : Thread nD τ).loc main_arg7)) slices_S384x128_S128x128_0_0 := by
    dsimp only [V7, W7, W6, W5, W4, W3, W2, W1, hostOps0, hostOps0_1, hostOps0_2, hostOps0_3, hostOps0_4, hostOps0_5, hostOps0_6]
    after_results_simp <;> rfl
  rw [e]
  exact slice2_axis0_apply 0 _ _ k q (lo3 k) (by show k.val = 0 + k.val; omega)

/-- The edge-update weights' second block: rows 128 … 255. -/
theorem v25_at (c : Dev nD) (k q : Fin 128) :
    V7 m ρ c main_v25 (ix2 k q) = (m ((c : Thread nD τ).loc main_arg7)) (ix2 (mid3 k) q) := by
  have e : V7 m ρ c main_v25 = extractStridedSlice S128x128 ![128, 0] (m ((c : Thread nD τ).loc main_arg7)) slices_S384x128_S128x128_128_0 := by
    dsimp only [V7, W7, W6, W5, W4, W3, W2, W1, hostOps0, hostOps0_1, hostOps0_2, hostOps0_3, hostOps0_4, hostOps0_5, hostOps0_6]
    after_results_simp <;> rfl
  rw [e]
  exact slice2_axis0_apply 128 _ _ k q (mid3 k) (by show 128 + k.val = 128 + k.val; omega)

/-- The edge-update weights' third block: rows 256 … 383. -/
theorem v26_at (c : Dev nD) (k q : Fin 128) :
    V7 m ρ c main_v26 (ix2 k q) = (m ((c : Thread nD τ).loc main_arg7)) (ix2 (hi3 k) q) := by
  have e : V7 m ρ c main_v26 = extractStridedSlice S128x128 ![256, 0] (m ((c : Thread nD τ).loc main_arg7)) slices_S384x128_S128x128_256_0 := by
    dsimp only [V7, W7, W6, W5, W4, W3, W2, W1, hostOps0, hostOps0_1, hostOps0_2, hostOps0_3, hostOps0_4, hostOps0_5, hostOps0_6]
    after_results_simp <;> rfl
  rw [e]
  exact slice2_axis0_apply 256 _ _ k q (hi3 k) (by show 256 + k.val = 256 + k.val; omega)

/-- The message bias as a row. -/
theorem v29_at (c : Dev nD) (q : Fin 128) :
    V7 m ρ c main_v29 (ix2 (0 : Fin 1) q) = (m ((c : Thread nD τ).loc main_arg4)) (ix1 q) := by
  have e : V7 m ρ c main_v29 = shapeCast S1x128 (m ((c : Thread nD τ).loc main_arg4)) shapeCasts_S128_S1x128 := by
    dsimp only [V7, W7, W6, W5, W4, W3, W2, W1, hostOps0, hostOps0_1, hostOps0_2, hostOps0_3, hostOps0_4, hostOps0_5, hostOps0_6]
    after_results_simp <;> rfl
  rw [e]
  exact shapeCast_a_1a_apply _ _ 0 q

/-- The edge-update bias as a row. -/
theorem v30_at (c : Dev nD) (q : Fin 128) :
    V7 m ρ c main_v30 (ix2 (0 : Fin 1) q) = (m ((c : Thread nD τ).loc main_arg8)) (ix1 q) := by
  have e : V7 m ρ c main_v30 = shapeCast S1x128 (m ((c : Thread nD τ).loc main_arg8)) shapeCasts_S128_S1x128 := by
    dsimp only [V7, W7, W6, W5, W4, W3, W2, W1, hostOps0, hostOps0_1, hostOps0_2, hostOps0_3, hostOps0_4, hostOps0_5, hostOps0_6]
    after_results_simp <;> rfl
  rw [e]
  exact shapeCast_a_1a_apply _ _ 0 q

end Cert.KernelIdeal.HostEntry0

end
-- ==== Proof.HostEntry1.lean ====
/-
  What the node region's operand arrays hold when that region is entered, for the operands no region wrote: the node
  features are the argument itself, the node-update weights' two blocks are the matrix's rows 0 … 127 and 128 … 255,
  the bias row is the bias. Each was last written before the edge region (or never), the edge region writes only its
  two results, and the host operations between the regions write none of them. The row of target indices, which the
  two per-node sums scatter by, is likewise the second row of the edge index.
-/
import proofs.«104886_j27144193311129_2_alg».proof.Proof.Gen.KernelIdeal.Frame
import proofs.«104886_j27144193311129_2_alg».proof.Proof.Gen.ReferenceIdeal.Read
import proofs.«104886_j27144193311129_2_alg».proof.Proof.Algebra
import Idealize.ShloMosaic.Lib.ValueLayout
set_option maxRecDepth 16384

noncomputable section

open scoped BigOperators

namespace Cert.KernelIdeal.HostEntry1

open Cert.KernelIdeal Cert.KernelIdeal.Gen Cert.Layer
open Idealize.ShloMosaic Idealize.ShloMosaic.TcCoe Idealize.ShloMosaic.ValueIdx Idealize.SL.Sem
open Cert.ReferenceIdeal.Read (val_main_v3 val_main_v10 val_main_v17 val_main_v23 val_main_v26 val_main_v30 val_main_v41 val_main_v47)

variable (m : (ℓ : Loc nD τ sig) → Buf (Elt Ideal) ℓ) (ρ : Dev nD → PrngReg)

/-- The node features the node region reads are the argument. -/
theorem arg0_eq (c : Dev nD) : V9 m ρ c main_arg0 = (m ((c : Thread nD τ).loc main_arg0)) := by
    have e1 : V9 m ρ c main_arg0 = W8 m ρ c (Proc.devRef .tc main_arg0) := by
      dsimp only [V9, W9, hostOps1]
      after_results_simp <;> rfl
    have e2 : W8 m ρ c (Proc.devRef .tc main_arg0) = W7 m ρ c (Proc.devRef .tc main_arg0) := W8_of_ne m ρ c main_arg0 (by decide)
    have e3 : W7 m ρ c (Proc.devRef .tc main_arg0) = (m ((c : Thread nD τ).loc main_arg0)) := by
      dsimp only [W7, W6, W5, W4, W3, W2, W1, hostOps0, hostOps0_1, hostOps0_2, hostOps0_3, hostOps0_4, hostOps0_5, hostOps0_6]
      after_results_simp <;> rfl
    exact e1.trans (e2.trans e3)

/-- The node-update weights' first block: rows 0 … 127. -/
theorem v27_at (c : Dev nD) (k q : Fin 128) :
    V9 m ρ c main_v27 (ix2 k q) = (m ((c : Thread nD τ).loc main_arg5)) (ix2 (lo2 k) q) := by
  have e : V9 m ρ c main_v27 = extractStridedSlice S128x128 ![0, 0] (m ((c : Thread nD τ).loc main_arg5)) slices_S256x128_S128x128_0_0 := by
    have e1 : V9 m ρ c main_v27 = W8 m ρ c (Proc.devRef .tc main_v27) := by
      dsimp only [V9, W9, hostOps1]
      after_results_simp <;> rfl
    have e2 : W8 m ρ c (Proc.devRef .tc main_v27) = W7 m ρ c (Proc.devRef .tc main_v27) := W8_of_ne m ρ c main_v27 (by decide)
    have e3 : W7 m ρ c (Proc.devRef .tc main_v27) = extractStridedSlice S128x128 ![0, 0] (m ((c : Thread nD τ).loc main_arg5)) slices_S256x128_S128x128_0_0 := by
      dsimp only [W7, W6, W5, W4, W3, W2, W1, hostOps0, hostOps0_1, hostOps0_2, hostOps0_3, hostOps0_4, hostOps0_5, hostOps0_6]
      after_results_simp <;> rfl
    exact e1.trans (e2.trans e3)
  rw [e]
  exact slice2_axis0_apply 0 _ _ k q (lo2 k) (by show k.val = 0 + k.val; omega)

/-- The node-update weights' second block: rows 128 … 255. -/
theorem v28_at (c : Dev nD) (k q : Fin 128) :
    V9 m ρ c main_v28 (ix2 k q) = (m ((c : Thread nD τ).loc main_arg5)) (ix2 (hi2 k) q) := by
  have e : V9 m ρ c main_v28 = extractStridedSlice S128x128 ![128, 0] (m ((c : Thread nD τ).loc main_arg5)) slices_S256x128_S128x128_128_0 := by
    have e1 : V9 m ρ c main_v28 = W8 m ρ c (Proc.devRef .tc main_v28) := by
      dsimp only [V9, W9, hostOps1]
      after_results_simp <;> rfl
    have e2 : W8 m ρ c (Proc.devRef .tc main_v28) = W7 m ρ c (Proc.devRef .tc main_v28) := W8_of_ne m ρ c main_v28 (by decide)
    have e3 : W7 m ρ c (Proc.devRef .tc main_v28) = extractStridedSlice S128x128 ![128, 0] (m ((c : Thread nD τ).loc main_arg5)) slices_S256x128_S128x128_128_0 := by
      dsimp only [W7, W6, W5, W4, W3, W2, W1, hostOps0, hostOps0_1, hostOps0_2, hostOps0_3, hostOps0_4, hostOps0_5, hostOps0_6]
      after_results_simp <;> rfl
    exact e1.trans (e2.trans e3)
  rw [e]
  exact slice2_axis0_apply 128 _ _ k q (hi2 k) (by show 128 + k.val = 128 + k.val; omega)

/-- The node-update bias as a row. -/
theorem v31_at (c : Dev nD) (q : Fin 128) :
    V9 m ρ c main_v31 (ix2 (0 : Fin 1) q) = (m ((c : Thread nD τ).loc main_arg6)) (ix1 q) := by
  have e : V9 m ρ c main_v31 = shapeCast S1x128 (m ((c : Thread nD τ).loc main_arg6)) shapeCasts_S128_S1x128 := by
    have e1 : V9 m ρ c main_v31 = W8 m ρ c (Proc.devRef .tc main_v31) := by
      dsimp only [V9, W9, hostOps1]
      after_results_simp <;> rfl
    have e2 : W8 m ρ c (Proc.devRef .tc main_v31) = W7 m ρ c (Proc.devRef .tc main_v31) := W8_of_ne m ρ c main_v31 (by decide)
    have e3 : W7 m ρ c (Proc.devRef .tc main_v31) = shapeCast S1x128 (m ((c : Thread nD τ).loc main_arg6)) shapeCasts_S128_S1x128 := by
      dsimp only [W7, W6, W5, W4, W3, W2, W1, hostOps0, hostOps0_1, hostOps0_2, hostOps0_3, hostOps0_4, hostOps0_5, hostOps0_6]
      after_results_simp <;> rfl
    exact e1.trans (e2.trans e3)
  rw [e]
  exact shapeCast_a_1a_apply _ _ 0 q

/-- The target indices, as the edge region leaves them: the edge index's second row (the reference's stage). -/
theorem tgt_eq (c : Dev nD) : W8 m ρ c (Proc.devRef .tc main_v3) = val_main_v3 (F := Ideal) (m ((c : Thread nD τ).loc main_arg2)) := by
    have e2 : W8 m ρ c (Proc.devRef .tc main_v3) = W7 m ρ c (Proc.devRef .tc main_v3) := W8_of_ne m ρ c main_v3 (by decide)
    have e3 : W7 m ρ c (Proc.devRef .tc main_v3) = val_main_v3 (F := Ideal) (m ((c : Thread nD τ).loc main_arg2)) := by
      dsimp only [W7, W6, W5, W4, W3, W2, W1, hostOps0, hostOps0_1, hostOps0_2, hostOps0_3, hostOps0_4, hostOps0_5, hostOps0_6]
      after_results_simp <;> rfl
    exact e2.trans e3

end Cert.KernelIdeal.HostEntry1

end
-- ==== Proof.RefAt.lean ====
/-
  The reference read at an entry, at the exact instance. Each of its three linear layers multiplies a row-wise
  concatenation by a weight matrix; the sum over the joined axis splits into one sum per joined piece (Algebra.lean),
  and the concatenation read inside a piece is that piece. So, with g_u and g_v the rows of h gathered at the source
  and target indices, agg the messages summed per target node and deg the number of edges per target node:
    message[r,q]  = max (Σₖ g_u[r,k]·P[k,q] + Σₖ e[r,k]·P[128+k,q] + b_P[q], 0)
    e_new[r,q]    = max (Σₖ e[r,k]·W[k,q] + Σₖ g_u[r,k]·W[128+k,q] + Σₖ g_v[r,k]·W[256+k,q] + b_W[q], 0)
    h_new[n,q]    = max (Σₖ h[n,k]·Q[k,q] + Σₖ (agg[n,k] / max(deg[n],1))·Q[128+k,q] + b_Q[q], 0).
  The gathers and the two per-node sums are carried as the reference's own stages, never opened.
-/
import proofs.«104886_j27144193311129_2_alg».proof.Proof.Gen.ReferenceIdeal.Read
import proofs.«104886_j27144193311129_2_alg».proof.Proof.Algebra
import Idealize.ShloMosaic.Lib.ValueLayout

set_option maxRecDepth 16384

noncomputable section

open scoped BigOperators

namespace Cert.ReferenceIdeal.At

open Cert.ReferenceIdeal Cert.ReferenceIdeal.Read Cert.Layer
open Idealize.ShloMosaic Idealize.ShloMosaic.ValueIdx

/-- The message of edge r at lane q. -/
theorem msg_at (x0 : (⟨S100000x128, .f32⟩ : BufTy).Contents (Elt Ideal)) (x1 : (⟨S625000x128, .f32⟩ : BufTy).Contents (Elt Ideal)) (x2 : (⟨S2x625000, .i32⟩ : BufTy).Contents (Elt Ideal)) (x3 : (⟨S256x128, .f32⟩ : BufTy).Contents (Elt Ideal)) (x4 : (⟨S128, .f32⟩ : BufTy).Contents (Elt Ideal)) (r : Fin 625000) (q : Fin 128) :
    val_main_v23 (F := Ideal) x0 x1 x2 x3 x4 (ix2 r q)
      = max (((∑ k : Fin 128, val_main_v10 (F := Ideal) x0 x2 (ix2 r k) * x3 (ix2 (lo2 k) q))
          + ∑ k : Fin 128, x1 (ix2 r k) * x3 (ix2 (hi2 k) q)) + x4 (ix1 q)) zeroWord := by
  rw [val_main_v23_apply, val_main_v22_apply, val_main_v19_apply, val_main_v21_apply, val_main_v20_apply,
    val_main_call0_v0_apply, val_main_call0_cst_apply, sum_two_blocks]
  simp only [Ideal.maximumf_def, Ideal.addf_def, Ideal.ofBits_def]
  refine congrArg₂ max (congrArg₂ (· + ·) (congrArg₂ (· + ·)
    (Finset.sum_congr rfl fun k _ => congrArg₂ (· * ·) ?_ ?_)
    (Finset.sum_congr rfl fun k _ => congrArg₂ (· * ·) ?_ ?_)) ?_) rfl
  · unfold val_main_v18
    exact concatenate_pair_apply_left (s₁ := S625000x128) (s₂ := S625000x128) 1 _ _ _ (lidx_main_v19 (ix2 r q) (lo2 k)) rfl (ix2 r k) (fun b => match b with | ⟨0, _⟩ => rfl | ⟨1, _⟩ => rfl)
  · exact congrArg x3 (funext fun a => match a with | ⟨0, _⟩ => rfl | ⟨1, _⟩ => rfl)
  · unfold val_main_v18
    exact concatenate_pair_apply_right (s₁ := S625000x128) (s₂ := S625000x128) 1 _ _ _ (lidx_main_v19 (ix2 r q) (hi2 k)) rfl rfl (ix2 r k)
      (fun b hb => match b, hb with | ⟨0, _⟩, _ => rfl | ⟨1, _⟩, hb => absurd rfl hb)
      (by show k.val + 128 = 128 + k.val; omega)
  · exact congrArg x3 (funext fun a => match a with | ⟨0, _⟩ => rfl | ⟨1, _⟩ => rfl)
  · exact congrArg x4 (funext fun a => match a with | ⟨0, _⟩ => rfl)

/-- The new feature of edge r at lane q. -/
theorem enew_at (x0 : (⟨S100000x128, .f32⟩ : BufTy).Contents (Elt Ideal)) (x1 : (⟨S625000x128, .f32⟩ : BufTy).Contents (Elt Ideal)) (x2 : (⟨S2x625000, .i32⟩ : BufTy).Contents (Elt Ideal)) (x7 : (⟨S384x128, .f32⟩ : BufTy).Contents (Elt Ideal)) (x8 : (⟨S128, .f32⟩ : BufTy).Contents (Elt Ideal)) (r : Fin 625000) (q : Fin 128) :
    val_main_v47 (F := Ideal) x0 x1 x2 x7 x8 (ix2 r q)
      = max ((((∑ k : Fin 128, x1 (ix2 r k) * x7 (ix2 (lo3 k) q))
          + ∑ k : Fin 128, val_main_v10 (F := Ideal) x0 x2 (ix2 r k) * x7 (ix2 (mid3 k) q))
          + ∑ k : Fin 128, val_main_v17 (F := Ideal) x0 x2 (ix2 r k) * x7 (ix2 (hi3 k) q)) + x8 (ix1 q)) zeroWord := by
  rw [val_main_v47_apply, val_main_v46_apply, val_main_v43_apply, val_main_v45_apply, val_main_v44_apply,
    val_main_call2_v0_apply, val_main_call2_cst_apply, sum_three_blocks]
  simp only [Ideal.maximumf_def, Ideal.addf_def, Ideal.ofBits_def]
  refine congrArg₂ max (congrArg₂ (· + ·) (congrArg₂ (· + ·) (congrArg₂ (· + ·)
    (Finset.sum_congr rfl fun k _ => congrArg₂ (· * ·) ?_ ?_)
    (Finset.sum_congr rfl fun k _ => congrArg₂ (· * ·) ?_ ?_))
    (Finset.sum_congr rfl fun k _ => congrArg₂ (· * ·) ?_ ?_)) ?_) rfl
  · unfold val_main_v42
    refine concatenate_apply_piece 1 _ _ (lidx_main_v43 (ix2 r q) (lo3 k)) 0 ?_ S625000x128 x1 rfl rfl 0 rfl (ix2 r k)
      (fun b hb => match b, hb with | ⟨0, _⟩, _ => rfl | ⟨1, _⟩, hb => absurd rfl hb) ?_
    · show (0 : ℕ) < 3; omega
    · show 0 + k.val = k.val; omega
  · exact congrArg x7 (funext fun a => match a with | ⟨0, _⟩ => rfl | ⟨1, _⟩ => rfl)
  · unfold val_main_v42
    refine concatenate_apply_piece 1 _ _ (lidx_main_v43 (ix2 r q) (mid3 k)) 1 ?_ S625000x128 (val_main_v10 (F := Ideal) x0 x2) rfl rfl 128 rfl (ix2 r k)
      (fun b hb => match b, hb with | ⟨0, _⟩, _ => rfl | ⟨1, _⟩, hb => absurd rfl hb) ?_
    · show (1 : ℕ) < 3; omega
    · show 128 + k.val = 128 + k.val; rfl
  · exact congrArg x7 (funext fun a => match a with | ⟨0, _⟩ => rfl | ⟨1, _⟩ => rfl)
  · unfold val_main_v42
    refine concatenate_apply_piece 1 _ _ (lidx_main_v43 (ix2 r q) (hi3 k)) 2 ?_ S625000x128 (val_main_v17 (F := Ideal) x0 x2) rfl rfl 256 rfl (ix2 r k)
      (fun b hb => match b, hb with | ⟨0, _⟩, _ => rfl | ⟨1, _⟩, hb => absurd rfl hb) ?_
    · show (2 : ℕ) < 3; omega
    · show 256 + k.val = 256 + k.val; rfl
  · exact congrArg x7 (funext fun a => match a with | ⟨0, _⟩ => rfl | ⟨1, _⟩ => rfl)
  · exact congrArg x8 (funext fun a => match a with | ⟨0, _⟩ => rfl)

/-- The divisor at any lane of node n: the node's degree clamped below by one. -/
theorem denom_at (x2 : (⟨S2x625000, .i32⟩ : BufTy).Contents (Elt Ideal)) (n : Fin 100000) (k : Fin 128) :
    val_main_v34 (F := Ideal) x2 (ix2 n k) = max (val_main_v30 (F := Ideal) x2 (ix1 n)) oneWord := by
  rw [val_main_v34_apply, val_main_v33_apply, val_main_v31_apply, val_main_v32_apply, val_main_cst_5_apply]
  simp only [Ideal.maximumf_def, Ideal.ofBits_def]
  exact congrArg₂ max (congrArg (val_main_v30 (F := Ideal) x2) (funext fun a => match a with | ⟨0, _⟩ => rfl)) rfl

/-- The new feature of node n at lane q. -/
theorem hnew_at (x0 : (⟨S100000x128, .f32⟩ : BufTy).Contents (Elt Ideal)) (x1 : (⟨S625000x128, .f32⟩ : BufTy).Contents (Elt Ideal)) (x2 : (⟨S2x625000, .i32⟩ : BufTy).Contents (Elt Ideal)) (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (n : Fin 100000) (q : Fin 128) :
    val_main_v41 (F := Ideal) x0 x1 x2 x3 x4 x5 x6 (ix2 n q)
      = max (((∑ k : Fin 128, x0 (ix2 n k) * x5 (ix2 (lo2 k) q))
          + ∑ k : Fin 128, Ideal.div (val_main_v26 (F := Ideal) x0 x1 x2 x3 x4 (ix2 n k)) (max (val_main_v30 (F := Ideal) x2 (ix1 n)) oneWord)
              * x5 (ix2 (hi2 k) q)) + x6 (ix1 q)) zeroWord := by
  rw [val_main_v41_apply, val_main_v40_apply, val_main_v37_apply, val_main_v39_apply, val_main_v38_apply,
    val_main_call1_v0_apply, val_main_call1_cst_apply, sum_two_blocks]
  simp only [Ideal.maximumf_def, Ideal.addf_def, Ideal.ofBits_def]
  refine congrArg₂ max (congrArg₂ (· + ·) (congrArg₂ (· + ·)
    (Finset.sum_congr rfl fun k _ => congrArg₂ (· * ·) ?_ ?_)
    (Finset.sum_congr rfl fun k _ => congrArg₂ (· * ·) ?_ ?_)) ?_) rfl
  · unfold val_main_v36
    exact concatenate_pair_apply_left (s₁ := S100000x128) (s₂ := S100000x128) 1 _ _ _ (lidx_main_v37 (ix2 n q) (lo2 k)) rfl (ix2 n k) (fun b => match b with | ⟨0, _⟩ => rfl | ⟨1, _⟩ => rfl)
  · exact congrArg x5 (funext fun a => match a with | ⟨0, _⟩ => rfl | ⟨1, _⟩ => rfl)
  · unfold val_main_v36
    refine (concatenate_pair_apply_right (s₁ := S100000x128) (s₂ := S100000x128) 1 _ _ _ (lidx_main_v37 (ix2 n q) (hi2 k)) rfl rfl (ix2 n k)
      (fun b hb => match b, hb with | ⟨0, _⟩, _ => rfl | ⟨1, _⟩, hb => absurd rfl hb)
      (by show k.val + 128 = 128 + k.val; omega)).trans ?_
    rw [val_main_v35_apply, denom_at]
    rfl
  · exact congrArg x5 (funext fun a => match a with | ⟨0, _⟩ => rfl | ⟨1, _⟩ => rfl)
  · exact congrArg x6 (funext fun a => match a with | ⟨0, _⟩ => rfl)

end Cert.ReferenceIdeal.At

end
-- ==== Proof.KernelValue.lean ====
/-
  The idealized kernel program's two results are the reference's two results.
  The edge result is the edge region's second output cut back to the 625000 real edges; the node result is the node
  region's output. Reading each at an entry through the two regions (EdgeRegion.lean, NodeRegion.lean) and the host
  operations around them (HostEntry0.lean, HostEntry1.lean) gives the same sums the reference gives (RefAt.lean):
  · the messages, cut back to the real edges, are the reference's messages; so the per-node sum of messages, scattered
    by the same target indices from the same zeros, is the reference's;
  · the per-node degree is the same scatter of ones on both sides;
  · the kernel scales a node's summed messages by the reciprocal of its clamped degree where the reference divides by
    the clamped degree: equal because the clamped degree is at least one (Algebra.lean).
-/
import proofs.«104886_j27144193311129_2_alg».proof.Proof.Gen.KernelIdeal.Frame
import proofs.«104886_j27144193311129_2_alg».proof.Proof.Gen.ReferenceIdeal.Read
import proofs.«104886_j27144193311129_2_alg».proof.Proof.Algebra
import proofs.«104886_j27144193311129_2_alg».proof.Proof.EdgeRegion
import proofs.«104886_j27144193311129_2_alg».proof.Proof.NodeRegion
import proofs.«104886_j27144193311129_2_alg».proof.Proof.HostEntry0
import proofs.«104886_j27144193311129_2_alg».proof.Proof.HostEntry1
import proofs.«104886_j27144193311129_2_alg».proof.Proof.RefAt
set_option maxRecDepth 16384

noncomputable section

open scoped BigOperators

namespace Cert.KernelIdeal.Value

open Cert.KernelIdeal Cert.KernelIdeal.Gen Cert.Layer
open Idealize.ShloMosaic Idealize.ShloMosaic.TcCoe Idealize.ShloMosaic.ValueIdx Idealize.SL.Sem
open Cert.KernelIdeal.HostEntry0 Cert.KernelIdeal.HostEntry1
open Cert.ReferenceIdeal.Read (val_main_v3 val_main_v10 val_main_v17 val_main_v23 val_main_v26 val_main_v30 val_main_v41 val_main_v47)

variable (m : (ℓ : Loc nD τ sig) → Buf (Elt Ideal) ℓ) (ρ : Dev nD → PrngReg)

/-- The messages the edge region leaves, cut back to the real edges, are the reference's messages. -/
theorem msg_slice (c : Dev nD) :
    extractStridedSlice S625000x128 ![0, 0] (W8 m ρ c (Proc.devRef .tc main_v32_0)) slices_S627200x128_S625000x128_0_0
      = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, q, rfl⟩ : ∃ (r : Fin 625000) (q : Fin 128), i = ix2 r q := ⟨i 0, i 1, eq_ix2 i⟩
  have hr : r.val < 625000 := r.isLt
  rw [Cert.ReferenceIdeal.At.msg_at]
  refine (slice2_axis0_apply 0 _ _ r q ⟨r.val, by omega⟩ (by show r.val = 0 + r.val; omega)).trans ?_
  rw [show W8 m ρ c (Proc.devRef .tc main_v32_0) = _ from (W8_arr m ρ c 10).trans (EdgeRegion.final_msg (V7 m ρ) c)]
  show EdgeRegion.msgRow (V7 m ρ c main_v19) (V7 m ρ c main_v21) (V7 m ρ c main_v22) (V7 m ρ c main_v23) (V7 m ρ c main_v29) ⟨r.val, by omega⟩ q = _
  unfold EdgeRegion.msgRow
  refine congrArg₂ max (congrArg₂ (· + ·) (congrArg₂ (· + ·)
    (Finset.sum_congr rfl fun k _ => congrArg₂ (· * ·) (v19_at m ρ c r k _ rfl) (v22_at m ρ c k q))
    (Finset.sum_congr rfl fun k _ => congrArg₂ (· * ·) (v21_at m ρ c r k _ rfl) (v23_at m ρ c k q)))
    (v29_at m ρ c q)) rfl

/-- The per-node sum of messages the node region reads is the reference's. -/
theorem agg_eq (c : Dev nD) : V9 m ρ c main_v37 = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e1 : V9 m ρ c main_v37 = Host.scatterAdd (F := Ideal) scatter_S100000x128_S625000x1_S625000x128_1_0_0_1
      (broadcastInDim S100000x128 ![] bcast_S_S100000x128 (constant (F := Ideal) S_ .f32 0x00000000#32))
      (broadcastInDim S625000x1 ![0] bcast_S625000_S625000x1_0 (W8 m ρ c (Proc.devRef .tc main_v3)))
      (extractStridedSlice S625000x128 ![0, 0] (W8 m ρ c (Proc.devRef .tc main_v32_0)) slices_S627200x128_S625000x128_0_0) := by
    dsimp only [V9, W9, hostOps1]
    after_results_simp <;> rfl
  rw [e1, tgt_eq, msg_slice]
  rfl

/-- The scale the node region reads for node n: the reciprocal of the node's degree clamped below by one. -/
theorem scale_at (c : Dev nD) (n : Fin 100000) :
    V9 m ρ c main_v46 (ix2 n (0 : Fin 1)) = Ideal.div oneWord (max (val_main_v30 (F := Ideal) (m ((c : Thread nD τ).loc main_arg2)) (ix1 n)) oneWord) := by
  have e1 : V9 m ρ c main_v46 = broadcastInDim S100000x1 ![0] bcast_S100000_S100000x1_0
      (Host.divf (F := Ideal) (broadcastInDim S100000 ![] bcast_S_S100000 (constant (F := Ideal) S_ .f32 0x3F800000#32))
        (maximumf (Host.scatterAdd (F := Ideal) scatter_S100000_S625000x1_S625000_n_0_0_1
            (broadcastInDim S100000 ![] bcast_S_S100000 (constant (F := Ideal) S_ .f32 0x00000000#32))
            (broadcastInDim S625000x1 ![0] bcast_S625000_S625000x1_0 (W8 m ρ c (Proc.devRef .tc main_v3)))
            (broadcastInDim S625000 ![] bcast_S_S625000 (constant (F := Ideal) S_ .f32 0x3F800000#32)))
          (broadcastInDim S100000 ![] bcast_S_S100000 (constant (F := Ideal) S_ .f32 0x3F800000#32)))) := by
    dsimp only [V9, W9, hostOps1]
    after_results_simp <;> rfl
  have hb : broadcastInDim S100000 ![] bcast_S_S100000 (constant (F := Ideal) S_ .f32 0x3F800000#32) (ix1 n) = oneWord :=
    broadcastInDim_apply _ _ _ (ix1 n) ix0 (fun a => a.elim0)
  have hD : Host.scatterAdd (F := Ideal) scatter_S100000_S625000x1_S625000_n_0_0_1
      (broadcastInDim S100000 ![] bcast_S_S100000 (constant (F := Ideal) S_ .f32 0x00000000#32))
      (broadcastInDim S625000x1 ![0] bcast_S625000_S625000x1_0 (val_main_v3 (F := Ideal) (m ((c : Thread nD τ).loc main_arg2))))
      (broadcastInDim S625000 ![] bcast_S_S625000 (constant (F := Ideal) S_ .f32 0x3F800000#32))
      = val_main_v30 (F := Ideal) (m ((c : Thread nD τ).loc main_arg2)) := rfl
  rw [e1, tgt_eq, hD]
  refine (broadcastInDim_apply _ _ _ (ix2 n (0 : Fin 1)) (ix1 n) (fun a => match a with
    | ⟨0, _⟩ => by show n.val = if (100000 : Nat) = 1 then 0 else n.val; rw [if_neg (by decide)])).trans ?_
  simp only [Host.divf, maximumf, Ideal.hostDivf_def, Ideal.maximumf_def]
  rw [hb]

/-- THE EDGE RESULT: what the program leaves in its second result buffer is the reference's new edge features. -/
theorem enew_eq (c : Dev nD) : W10 m ρ c (Proc.devRef .tc main_v34)
    = val_main_v47 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  have e1 : W10 m ρ c (Proc.devRef .tc main_v34) = W9 m ρ c (Proc.devRef .tc main_v34) := W10_of_ne m ρ c main_v34 (by decide)
  have e2 : W9 m ρ c (Proc.devRef .tc main_v34)
      = extractStridedSlice S625000x128 ![0, 0] (W8 m ρ c (Proc.devRef .tc main_v32_1)) slices_S627200x128_S625000x128_0_0 := by
    dsimp only [W9, hostOps1]
    after_results_simp <;> rfl
  rw [e1, e2]
  funext i
  obtain ⟨r, q, rfl⟩ : ∃ (r : Fin 625000) (q : Fin 128), i = ix2 r q := ⟨i 0, i 1, eq_ix2 i⟩
  have hr : r.val < 625000 := r.isLt
  rw [Cert.ReferenceIdeal.At.enew_at]
  refine (slice2_axis0_apply 0 _ _ r q ⟨r.val, by omega⟩ (by show r.val = 0 + r.val; omega)).trans ?_
  rw [show W8 m ρ c (Proc.devRef .tc main_v32_1) = _ from (W8_arr m ρ c 11).trans (EdgeRegion.final_enew (V7 m ρ) c)]
  show EdgeRegion.enewRow (V7 m ρ c main_v19) (V7 m ρ c main_v20) (V7 m ρ c main_v21) (V7 m ρ c main_v24) (V7 m ρ c main_v25) (V7 m ρ c main_v26) (V7 m ρ c main_v30) ⟨r.val, by omega⟩ q = _
  unfold EdgeRegion.enewRow
  refine congrArg₂ max (congrArg₂ (· + ·) (congrArg₂ (· + ·) (congrArg₂ (· + ·)
    (Finset.sum_congr rfl fun k _ => congrArg₂ (· * ·) (v21_at m ρ c r k _ rfl) (v24_at m ρ c k q))
    (Finset.sum_congr rfl fun k _ => congrArg₂ (· * ·) (v19_at m ρ c r k _ rfl) (v25_at m ρ c k q)))
    (Finset.sum_congr rfl fun k _ => congrArg₂ (· * ·) (v20_at m ρ c r k _ rfl) (v26_at m ρ c k q)))
    (v30_at m ρ c q)) rfl

/-- THE NODE RESULT: what the program leaves in its first result buffer is the reference's new node features. -/
theorem hnew_eq (c : Dev nD) : W10 m ρ c (Proc.devRef .tc main_v47)
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W10 m ρ c (Proc.devRef .tc main_v47) = _ from (W10_arr m ρ c 6).trans (NodeRegion.final_hnew (V9 m ρ) c)]
  funext i
  obtain ⟨n, q, rfl⟩ : ∃ (n : Fin 100000) (q : Fin 128), i = ix2 n q := ⟨i 0, i 1, eq_ix2 i⟩
  rw [Cert.ReferenceIdeal.At.hnew_at]
  show NodeRegion.hnewRow (V9 m ρ c main_arg0) (V9 m ρ c main_v37) (V9 m ρ c main_v46) (V9 m ρ c main_v27) (V9 m ρ c main_v28) (V9 m ρ c main_v31) n q = _
  unfold NodeRegion.hnewRow
  refine congrArg₂ max (congrArg₂ (· + ·) (congrArg₂ (· + ·)
    (Finset.sum_congr rfl fun k _ => congrArg₂ (· * ·) (congrFun (arg0_eq m ρ c) (ix2 n k)) (v27_at m ρ c k q))
    (Finset.sum_congr rfl fun k _ => congrArg₂ (· * ·) ?_ (v28_at m ρ c k q)))
    (v31_at m ρ c q)) rfl
  rw [congrFun (agg_eq m ρ c) (ix2 n k), scale_at m ρ c n]
  exact (div_clamped _ _).symm

end Cert.KernelIdeal.Value

end
-- ==== Proof.lean ====
/-
  A message-passing layer of a graph network, on 100000 nodes and 625000 edges, against its plain reference:
  both results equal as extended reals, for every argument (no finiteness is used).

  With g_u, g_v the rows of h gathered at each edge's source and target index, the layer computes
    message  = relu ([g_u, e] · P + b_P)                               per edge,
    e_new    = relu ([e, g_u, g_v] · W + b_W)                          per edge,
    agg      = the messages summed per target node,  deg = the number of edges per target node,
    h_new    = relu ([h, agg / max(deg, 1)] · Q + b_Q)                 per node.
  The kernel program computes the two per-edge products in one tiled region over edge blocks and the per-node product
  in a second tiled region over node blocks, each product of a concatenation split into one product per concatenated
  piece against the matching block of rows of the weight matrix; it pads the edge-long arrays with zero rows to a
  whole number of blocks and cuts the padding off again; and it multiplies the summed messages by 1 / max(deg, 1)
  inside the node region instead of dividing outside it.
  At the exact instance a change of float format is the identity, a sum over a joined axis is the sum of the sums over
  the pieces (addition of extended reals is commutative and associative), and a quotient by a number that is at
  least one is the product with its reciprocal. The gathers and the two per-node sums are the same operations of the
  same operands in both programs and are never opened.

  The modules: Algebra (the two laws), Rows and Bodies (each region's stored value at an entry), EdgeRegion and
  NodeRegion (each region's output array as one function of the arrays it is entered with), RunNamed (the program's
  run with its results named at the last segment boundary), HostEntry0 and HostEntry1 (the host operations read at an
  entry), RefAt (the reference at an entry), KernelValue (the two results are the reference's).
-/
import proofs.«104886_j27144193311129_2_alg».proof.Defs
import proofs.«104886_j27144193311129_2_alg».proof.Proof.Gen.Kernel
import proofs.«104886_j27144193311129_2_alg».proof.Proof.Gen.Kernel.Frame
import proofs.«104886_j27144193311129_2_alg».proof.Proof.Gen.KernelIdeal
import proofs.«104886_j27144193311129_2_alg».proof.Proof.Gen.KernelIdeal.Frame
import proofs.«104886_j27144193311129_2_alg».proof.Proof.Gen.ReferenceIdeal
import proofs.«104886_j27144193311129_2_alg».proof.Proof.Gen.ReferenceIdeal.Run
import proofs.«104886_j27144193311129_2_alg».proof.Proof.Gen.ReferenceIdeal.Read
import proofs.«104886_j27144193311129_2_alg».proof.Proof.Gen.Pre_finite_inputs
import proofs.«104886_j27144193311129_2_alg».proof.Proof.RunNamed
import proofs.«104886_j27144193311129_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both idealized programs run and end with equal results: the kernel
    program's two result buffers hold the reference's two stages of the kernel's arguments, and the reference's run
    ends at those stages of its own arguments, which are the same arrays. -/
theorem algebraic : Cert.algebraic_KernelIdeal_ReferenceIdeal := by
  intro m ρ m' ρ' _ hagree
  refine ⟨fun c => Cert.KernelIdeal.Gen.W10 m ρ c (Proc.devRef .tc Cert.KernelIdeal.main_v47),
    fun c => Cert.KernelIdeal.Gen.W10 m ρ c (Proc.devRef .tc Cert.KernelIdeal.main_v34),
    Cert.KernelIdeal.Whole.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v41_eq _ _ _ _ _ _ _).trans ?_
    rw [(hagree c).1, (hagree c).2.1, (hagree c).2.2.1, (hagree c).2.2.2.1, (hagree c).2.2.2.2.1, (hagree c).2.2.2.2.2.1, (hagree c).2.2.2.2.2.2.1]
    exact (Cert.KernelIdeal.Value.hnew_eq m ρ c).symm
  · refine (Cert.ReferenceIdeal.Read.val_main_v47_eq _ _ _ _ _).trans ?_
    rw [(hagree c).1, (hagree c).2.1, (hagree c).2.2.1, (hagree c).2.2.2.2.2.2.2.1, (hagree c).2.2.2.2.2.2.2.2]
    exact (Cert.KernelIdeal.Value.enew_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
